-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S400x10000 : Shape := ⟨2, ![400, 10000]⟩
abbrev S400x128 : Shape := ⟨2, ![400, 128]⟩
abbrev S2x10000x256 : Shape := ⟨3, ![2, 10000, 256]⟩
abbrev S10000x256 : Shape := ⟨2, ![10000, 256]⟩
abbrev S1x10000x256 : Shape := ⟨3, ![1, 10000, 256]⟩
abbrev S400x256 : Shape := ⟨2, ![400, 256]⟩
abbrev S1x400x256 : Shape := ⟨3, ![1, 400, 256]⟩

abbrev nBuf : Space → Nat
  | .hbm => 20
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128x256, .bf16⟩
  | .hbm, ⟨12, _⟩ => ⟨S128x256, .f32⟩
  | .hbm, ⟨13, _⟩ => ⟨S128x256, .bf16⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .bf16⟩
  | .local _ .vmem, ⟨4, _⟩ => ⟨S128x256, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S2x10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 25], ![false, false]⟩

def k0_off1 (i : grid0.Coords) : Fin 3 → Nat :=
  let arg0 : BitVec 32 := BitVec.ofNat 32 (i 0).val
  let v7 : Index := Scalar.indexCast arg0
  let c0_3 : Index := 0#32
  let c0_4 : Index := 0#32
  ![v7.toNat, 0, 0]
def k0_cond2 (i : grid0.Coords) : BitVec 1 :=
  let arg0 : BitVec 32 := BitVec.ofNat 32 (i 0).val
  let c0_i32_5 : BitVec 32 := 0#32
  let v11 : BitVec 1 := Scalar.cmpi .eq arg0 c0_i32_5
  let v12 : BitVec 32 := Scalar.extui v11
  let c0_i32_6 : BitVec 32 := 0#32
  let v13 : BitVec 1 := Scalar.cmpi .ne v12 c0_i32_6
  v13

def k0_off2 (i : grid0.Coords) : Fin 3 → Nat :=
  let c1 : Index := 1#32
  let arg1 : BitVec 32 := BitVec.ofNat 32 (i 1).val
  let c400_i32 : BitVec 32 := 400#32
  let v35 : BitVec 32 := Scalar.muli arg1 c400_i32
  let v36 : Index := Scalar.indexCast v35
  let c0_15 : Index := 0#32
  ![1, v36.toNat, 0]
def k0_cond3 (i : grid0.Coords) : BitVec 1 :=
  let arg0 : BitVec 32 := BitVec.ofNat 32 (i 0).val
  let c1_i32 : BitVec 32 := 1#32
  let v14 : BitVec 1 := Scalar.cmpi .eq arg0 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let c24_i32_0 : BitVec 32 := 24#32
  let v2 : BitVec 32 := Scalar.select v0 c24_i32_0 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let c24_i32_0 : BitVec 32 := 24#32
  let v2 : BitVec 32 := Scalar.select v0 c24_i32_0 v1
  let c0_i32_1 : BitVec 32 := 0#32
  let c0_i32_2 : BitVec 32 := 0#32
  ![v2.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  concatenates_S128x128_S128x128_S128x256_d1 : Shape.Concatenates [S128x128, S128x128] S128x256 1
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2x10000x256_S1x10000x256_0_0_0 : ∀ a, (![0, 0, 0] : Fin 3 → Nat) a + S1x10000x256.size a ≤ S2x10000x256.size a
  h_S1x10000x256 : 0 < S1x10000x256.numel
  shapeCasts_S1x10000x256_S10000x256 : S1x10000x256.ShapeCasts S10000x256
  shapeCasts_S10000x256_S1x10000x256 : S10000x256.ShapeCasts S1x10000x256
  packedbf16_S2x10000x256_S1x10000x256_0_0_0 : (Rect.unit (s := S2x10000x256) ![0, 0, 0] S1x10000x256.size inb_S2x10000x256_S1x10000x256_0_0_0).PackedRows (EltTy.packing .bf16)
  inb_S400x10000_S400x10000_0_0 : ∀ a, (![0, 0] : Fin 2 → Nat) a + S400x10000.size a ≤ S400x10000.size a
  h_S400x10000 : 0 < S400x10000.numel
  slices_S400x256_o0_0_S400x128 : S400x256.Slices ![0, 0] S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  slices_S400x256_o0_128_S400x128 : S400x256.Slices ![0, 128] S400x128
  h_S1x400x256 : 0 < S1x400x256.numel
  shapeCasts_S1x400x256_S400x256 : S1x400x256.ShapeCasts S400x256
  shapeCasts_S400x256_S1x400x256 : S400x256.ShapeCasts S1x400x256
  inb_S400x128_S400x128_0_0 : ∀ a, (![0, 0] : Fin 2 → Nat) a + S400x128.size a ≤ S400x128.size a
  h_S400x128 : 0 < S400x128.numel
  dot_S10000x128_S128x256_S10000x256_1_0_0_1_n_n_wf : DotDims.WF S10000x128 S128x256 S10000x256 [1] [0] [0] [1] [] []
  dot_S400x10000_S10000x256_S400x256_1_0_0_1_n_n_wf : DotDims.WF S400x10000 S10000x256 S400x256 [1] [0] [0] [1] [] []
  dot_S400x128_S128x256_S400x256_1_0_0_1_n_n_wf : DotDims.WF S400x128 S128x256 S400x256 [1] [0] [0] [1] [] []
  hrank0 : 0 < grid0.rank
  k0_off1_inb : ∀ i : grid0.Coords, ∀ a, (k0_off1 i) a + S1x10000x256.size a ≤ S2x10000x256.size a
  k0_off2_inb : ∀ i : grid0.Coords, ∀ (k0_h2 : k0_cond2 i = 1#1), ∀ a, (k0_off2 i) a + S1x400x256.size a ≤ S2x10000x256.size a
  k0_off2_packedbf16 : ∀ i : grid0.Coords, ∀ (k0_h2 : k0_cond2 i = 1#1), (Rect.unit (s := S2x10000x256) (k0_off2 i) S1x400x256.size (k0_off2_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x128.size a ≤ S10000x128.size a
  hwx0_9 : ∀ i : grid0.Coords, EltTy.bits .f32 = 32 ∨ (Rect.block (s := S10000x128) S400x128.size (cc0_transform_9 i) (hinb0_9 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | 9 => fun i => !(k0_cond3 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibBoxUpdate.lean ====
/-
  A unit-stride box of an array overwritten, and a box read out of it.

  For an array `X` over the index set of a shape, `upd X off size w` is `X` with the box of extents
  `size` at offsets `off` replaced by `w` (an index inside the box reads `w` at its position within the
  box, any other index reads `X`), and `box X off size inb` is the box read out of `X` as an array of its
  own extents.  Reading back the box just written gives what was written (`box_upd_self`); a box that is
  separated from the written one on some axis reads what was there before (`box_upd_of_sep`); and what a
  buffer reads after a list of stores whose newest one goes through a unit-stride box is the `upd` of what
  it read after the earlier stores (`read_writes_cons_upd`).
-/
import Idealize.ShloMosaic.Lib.WritesUnit
import Idealize.ShloMosaic.Lib.Pipeline.FrameBody
import Idealize.ShloMosaic.Lib.Pipeline.Value

namespace Idealize.ShloMosaic.BoxUpdate

variable {s : Shape} {α : Type}

/-- `X` with the unit-stride box of extents `size` at offsets `off` overwritten by `w`. -/
def upd (X : s.Idx → α) (off size : Fin s.rank → ℕ) (w : (⟨s.rank, size⟩ : Shape).Idx → α) : s.Idx → α :=
  fun y => if h : ∀ a, off a ≤ (y a).val ∧ (y a).val < off a + size a then
    w (Rect.unitLocal (s := s) (off := off) (size := size) y h) else X y

/-- The unit-stride box of extents `size` at offsets `off`, read out of `X`. -/
def box (X : s.Idx → α) (off size : Fin s.rank → ℕ) (inb : ∀ a, off a + size a ≤ s.size a) :
    (⟨s.rank, size⟩ : Shape).Idx → α :=
  fun x => X ((Rect.unit off size inb).idx x)

/-- The box as a load through the rectangle reads it. -/
theorem box_eq_ld {Val : EltTy → Type} {e : EltTy} (X : s.Idx → Val e) (off size : Fin s.rank → ℕ)
    (inb : ∀ a, off a + size a ≤ s.size a) : View.ld X (Rect.unit off size inb) = box X off size inb := rfl

/-- An index inside the written box reads the written value at its position. -/
theorem upd_idx (X : s.Idx → α) (off size : Fin s.rank → ℕ) (inb : ∀ a, off a + size a ≤ s.size a)
    (w : (⟨s.rank, size⟩ : Shape).Idx → α) (x : (⟨s.rank, size⟩ : Shape).Idx) :
    upd X off size w ((Rect.unit off size inb).idx x) = w x := by
  have h : ∀ a, off a ≤ (((Rect.unit off size inb).idx x) a).val
      ∧ (((Rect.unit off size inb).idx x) a).val < off a + size a := fun a => by
    have hx : (x a).val < size a := (x a).isLt
    simp only [LoadRect.idx_apply, Rect.off_unit, Rect.stride_unit, Nat.one_mul]
    constructor <;> omega
  unfold upd
  rw [dif_pos h]
  congr 1
  funext a
  apply Fin.ext
  rw [Rect.unitLocal_val]
  simp only [LoadRect.idx_apply, Rect.off_unit, Rect.stride_unit, Nat.one_mul]
  omega

/-- Reading back the box just written gives what was written. -/
theorem box_upd_self (X : s.Idx → α) (off size : Fin s.rank → ℕ) (inb : ∀ a, off a + size a ≤ s.size a)
    (w : (⟨s.rank, size⟩ : Shape).Idx → α) : box (upd X off size w) off size inb = w :=
  funext fun x => upd_idx X off size inb w x

/-- An index outside the written box on axis `a` reads what was there before. -/
theorem upd_of_sep (X : s.Idx → α) (off size : Fin s.rank → ℕ) (w : (⟨s.rank, size⟩ : Shape).Idx → α)
    (y : s.Idx) (a : Fin s.rank) (h : (y a).val < off a ∨ off a + size a ≤ (y a).val) :
    upd X off size w y = X y := by
  unfold upd
  rw [dif_neg]
  intro hall
  have := hall a
  omega

/-- A box separated on axis `a` from the written one reads what was there before. -/
theorem box_upd_of_sep (X : s.Idx → α) (off size : Fin s.rank → ℕ) (w : (⟨s.rank, size⟩ : Shape).Idx → α)
    (off' size' : Fin s.rank → ℕ) (inb' : ∀ a, off' a + size' a ≤ s.size a) (a : Fin s.rank)
    (h : off' a + size' a ≤ off a ∨ off a + size a ≤ off' a) :
    box (upd X off size w) off' size' inb' = box X off' size' inb' := by
  funext x
  unfold box
  refine upd_of_sep X off size w _ a ?_
  have hx : (x a).val < size' a := (x a).isLt
  simp only [LoadRect.idx_apply, Rect.off_unit, Rect.stride_unit, Nat.one_mul]
  omega

/-- The box depends on the offsets only through their values. -/
theorem box_congr (X : s.Idx → α) {off off' : Fin s.rank → ℕ} (size : Fin s.rank → ℕ)
    (inb : ∀ a, off a + size a ≤ s.size a) (h : off = off') :
    box X off size inb = box X off' size (h ▸ inb) := by subst h; rfl

/-- The update depends on the offsets only through their values. -/
theorem upd_congr (X : s.Idx → α) {off off' : Fin s.rank → ℕ} (size : Fin s.rank → ℕ)
    (w : (⟨s.rank, size⟩ : Shape).Idx → α) (h : off = off') : upd X off size w = upd X off' size w := by
  subst h; rfl

section Writes

variable {sig : RefSig} {κ : Kind} {sp : Space} {e : EltTy} {Val : EltTy → Type}

/-- What a buffer reads after a list of stores whose newest goes through a unit-stride box: the box
    overwritten in what it read after the earlier stores. -/
theorem read_writes_cons_upd (v : View sig κ sp s e) (f : v.ty.Contents Val) {off size : Fin s.rank → ℕ}
    (inb : ∀ a, off a + size a ≤ s.size a) (w : (Rect.unit off size inb).shape.Idx → Val e)
    (L : List (View.Piece Val s e)) :
    v.read Val (v.writes Val f ((⟨Rect.unit off size inb, w⟩ : View.Piece Val s e) :: L))
      = upd (v.read Val (v.writes Val f L)) off size w := by
  funext y
  rw [View.read_writes_cons_unit v f inb w L y rfl]
  rfl

/-- A store through the whole-shape box at zero offsets leaves its value, whatever was there. -/
theorem read_writes_whole_unit [∀ e, Nonempty (Val e)] (v : View sig κ sp s e) (f : v.ty.Contents Val)
    {off : Fin s.rank → ℕ} (h : off = fun _ => 0) (inb : ∀ a, off a + s.size a ≤ s.size a) (w : s.Idx → Val e) :
    v.read Val (v.writes Val f [(⟨Rect.unit off s.size inb, w⟩ : View.Piece Val s e)]) = w := by
  rw [View.read_writes_eq_canon _ _ _ (fun y => ⟨_, List.mem_singleton_self _, View.mem_set_unit_zero h inb y⟩),
    View.canon_unit_zero h]

end Writes

end Idealize.ShloMosaic.BoxUpdate
-- ==== Proof.KBodyRuns.lean ====
/-
  The kernel body run once in each of the three ways the grid meets it.

  The grid is two phases of twenty-five points.  The body always multiplies its block of four hundred
  adjacency rows by one of the two planes of the carried buffer (plane `p` in phase `p`).  At the very first
  point it first fills plane 0 with the support of both gates, `x · [W1 | W2]`.  In phase 0 it applies the
  gate to the product and stores the block's rows of `t · [Wmu | Wls]` into plane 1; in phase 1 it adds the
  biases and stores the two result blocks.  Each run is stated over arbitrary whole buffers at named
  contents: the inputs come back unchanged, and the carried buffer (resp. the two result buffers) comes back
  with exactly the boxes the stores overwrote, as functions of what was loaded.
-/
import proofs.«163584_g73933567034016_fold_wed_c4_870_20_alg».proof.Proof.Gen.Kernel.Frame
import proofs.«163584_g73933567034016_fold_wed_c4_870_20_alg».proof.Proof.Gen.Kernel.Skeleton
import Idealize.ShloMosaic.Lib.Pipeline.FrameBody
import Idealize.ShloMosaic.Lib.Ring
import Idealize.ShloMosaic.Lib.Tactic
import proofs.«163584_g73933567034016_fold_wed_c4_870_20_alg».proof.Proof.LibBoxUpdate

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond2 (i : grid0.Coords) : Prop := k0_cond2 i = 1#1
abbrev cond3 (i : grid0.Coords) : Prop := k0_cond3 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A load of a whole buffer reads its contents. -/
theorem readAt_whole {S : Shape} {e : EltTy} (M : Memref sig .tc .vmem S e) (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- A load of a box of a buffer reads the box of its contents. -/
theorem readAt_box {S : Shape} {e : EltTy} (M : Memref sig .tc .vmem S e) (h : M.IsWhole) (off size : Fin S.rank → ℕ)
    (inb : ∀ a, off a + size a ≤ S.size a) (x : S.Idx → Elt F e) :
    View.readAt (Elt F) M.view (Rect.unit off size inb).toLoadRect (h.unread x) = box x off size inb := by
  rw [View.readAt_eq_ld, h.read_unread]; rfl

/-- The plane of the carried buffer the product reads at a point, and the rows of plane 1 a phase-0 point stores. -/
abbrev planeAt (i : grid0.Coords) (xs : Vec F S2x10000x256 .bf16) : Vec F S1x10000x256 .bf16 :=
  box xs (k0_off1 i) S1x10000x256.size (k0_off1_inb i)

set_option maxHeartbeats 1000000 in
/-- Phase 1: nothing is stored into the carried buffer; the two result buffers end at the product's two halves
    plus their biases. -/
theorem runC (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : ¬cond1 i) (hc2 : ¬cond2 i) (hc3 : cond3 i)
    (x0 : Vec F S400x10000 .f32) (x6 : Vec F S1x128 .f32) (x7 : Vec F S1x128 .f32) (xs : Vec F S2x10000x256 .bf16)
    (E : Set ℕ) (K : PUnit → sProp 𝕄) :
    iprop(owns (c : Thread nD τ) arg2 fullShare x0 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare xs
        ∗ (iprop(owns (c : Thread nD τ) arg2 fullShare x0 ∗ owns (c : Thread nD τ) arg8 fullShare x6 ∗ owns (c : Thread nD τ) arg9 fullShare x7
            ∗ owns (c : Thread nD τ) arg10 fullShare (k0_pay4 x0 (planeAt i xs) x6)
            ∗ owns (c : Thread nD τ) arg11 fullShare (k0_pay5 x0 (planeAt i xs) x7)
            ∗ owns (c : Thread nD τ) arg12 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f0, %hf0, H0⟩, ⟨%f6, %hf6, H6⟩, ⟨%f7, %hf7, H7⟩, ⟨%d8, %f8, -, H8⟩, ⟨%d9, %f9, -, H9⟩, ⟨%fs, %hfs, HS⟩, Hk⟩
  obtain rfl := harg2.eq_unread hf0; obtain rfl := harg8.eq_unread hf6; obtain rfl := harg9.eq_unread hf7; obtain rfl := harg12.eq_unread hfs
  sl_exec (disch := first | exact hc1 | exact hc2 | exact hc3)
  sl_step
  iapply Hk
  isplitl [H0]; · iexists _; isplitr; · ipureintro; exact hf0
                  iexact H0
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole_unit _ _ hz2, readAt_whole _ _ hz2, readAt_whole _ _ hz2, readAt_box]
  isplitl [H9]
  · iexists _; isplitr; swap; · iexact H9
    ipureintro
    rw [read_writes_whole_unit _ _ hz2, readAt_whole _ _ hz2, readAt_whole _ _ hz2, readAt_box]
  iexists _; isplitr; · ipureintro; exact hfs
  iexact HS

set_option maxHeartbeats 1000000 in
/-- Phase 0 after the first point: the block's rows of plane 1 are overwritten by the gated product times the
    second weight pair; everything else in the carried buffer stays. -/
theorem runB (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : ¬cond1 i) (hc2 : cond2 i) (hc3 : ¬cond3 i)
    (x0 : Vec F S400x10000 .f32) (x4 x5 : Vec F S1x128 .f32) (x3 : Vec F S128x256 .bf16) (xs : Vec F S2x10000x256 .bf16)
    (E : Set ℕ) (K : PUnit → sProp 𝕄) :
    iprop(owns (c : Thread nD τ) arg2 fullShare x0 ∗ owns (c : Thread nD τ) arg6 fullShare x4 ∗ owns (c : Thread nD τ) arg7 fullShare x5
        ∗ owns (c : Thread nD τ) arg5 fullShare x3
        ∗ owns (c : Thread nD τ) arg12 fullShare xs
        ∗ (iprop(owns (c : Thread nD τ) arg2 fullShare x0 ∗ owns (c : Thread nD τ) arg6 fullShare x4 ∗ owns (c : Thread nD τ) arg7 fullShare x5
            ∗ owns (c : Thread nD τ) arg5 fullShare x3
            ∗ owns (c : Thread nD τ) arg12 fullShare (upd xs (k0_off2 i) S1x400x256.size (k0_pay3 x0 (planeAt i xs) x4 x5 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f0, %hf0, H0⟩, ⟨%f4, %hf4, H4⟩, ⟨%f5, %hf5, H5⟩, ⟨%f3, %hf3, H3⟩, ⟨%fs, %hfs, HS⟩, Hk⟩
  obtain rfl := harg2.eq_unread hf0; obtain rfl := harg6.eq_unread hf4; obtain rfl := harg7.eq_unread hf5; obtain rfl := harg5.eq_unread hf3; obtain rfl := harg12.eq_unread hfs
  sl_exec (disch := first | exact hc1 | exact hc2 | exact hc3)
  sl_step
  iapply Hk
  isplitl [H0]; · iexists _; isplitr; · ipureintro; exact hf0
                  iexact H0
  isplitl [H4]; · iexists _; isplitr; · ipureintro; exact hf4
                  iexact H4
  isplitl [H5]; · iexists _; isplitr; · ipureintro; exact hf5
                  iexact H5
  isplitl [H3]; · iexists _; isplitr; · ipureintro; exact hf3
                  iexact H3
  iexists _; isplitr; swap; · iexact HS
  ipureintro
  rw [read_writes_cons_upd, View.writes_nil, harg12.read_unread, readAt_whole _ _ hz2, readAt_whole _ _ hz2, readAt_whole _ _ hz2,
    readAt_whole _ _ hz2, readAt_box]

set_option maxHeartbeats 1000000 in
/-- The first point: plane 0 is filled with the support of both gates, then the point proceeds as the other
    phase-0 points do, reading the plane it has just filled. -/
theorem runA (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : cond1 i) (hc2 : cond2 i) (hc3 : ¬cond3 i)
    (x0 : Vec F S400x10000 .f32) (x1 : Vec F S10000x128 .f32) (x2 : Vec F S128x256 .bf16) (x4 x5 : Vec F S1x128 .f32) (x3 : Vec F S128x256 .bf16) (xs : Vec F S2x10000x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5
        ∗ owns (c : Thread nD τ) arg5 fullShare x3
        ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5
            ∗ owns (c : Thread nD τ) arg5 fullShare x3
            ∗ owns (c : Thread nD τ) arg12 fullShare
                (upd (upd xs ![0, 0, 0] S1x10000x256.size (k0_pay1 x1 x2)) (k0_off2 i) S1x400x256.size
                  (k0_pay3 x0 (planeAt i (upd xs ![0, 0, 0] S1x10000x256.size (k0_pay1 x1 x2))) x4 x5 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f4, %hf4, H4⟩, ⟨%f5, %hf5, H5⟩, ⟨%f3, %hf3, H3⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hf5; obtain rfl := harg5.eq_unread hf3; obtain rfl := harg12.eq_unread hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]; · iexists _; isplitr; · ipureintro; exact hf4
                  iexact H4
  isplitl [H5]; · iexists _; isplitr; · ipureintro; exact hf5
                  iexact H5
  isplitl [H3]; · iexists _; isplitr; · ipureintro; exact hf3
                  iexact H3
  iexists _; isplitr; swap; · iexact HS
  ipureintro
  unfold runA.sl.HS_1
  rw [read_writes_cons_upd, read_writes_cons_upd, View.writes_nil, harg12.read_unread, readAt_whole _ _ hz2, readAt_whole _ _ hz2, readAt_whole _ _ hz2,
    readAt_whole _ _ hz2, readAt_whole _ _ hz2, readAt_whole _ _ hz2]
  rw [View.readAt_eq_ld, read_writes_cons_upd, View.writes_nil, harg12.read_unread]
  rfl

end Cert.Kernel.Hand

end
-- ==== Proof.KCarried.lean ====
/-
  What the carried buffer is known to hold between grid points.

  Nothing is known of the buffer when the kernel starts.  The first point fills plane 0 with the support
  `P0 = x · [W1 | W2]`, and phase-0 point `n` overwrites rows `[400 n, 400 n + 400)` of plane 1 with
  `u n`: the gate applied to (adjacency block `n`) · `P0`, times `[Wmu | Wls]`.  So before point `n`
  (for `n ≥ 1`) plane 0 is `P0` and the first `min n 25` row blocks of plane 1 are `u 0, …, u (n-1)`
  (`Good n`); the stores of a point go to rows no earlier point wrote and never to plane 0, so each phase-0
  point extends this by one block (`good_step`), and once all twenty-five blocks are in, plane 1 is the array
  `Uall` that stacks them (`good_plane1`), whatever the buffer held at the start.
-/
import proofs.«163584_g73933567034016_fold_wed_c4_870_20_alg».proof.Proof.KBodyRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt F) ℓ) (c : Dev nD)

/-- The first grid point, and phase-0 point `n`. -/
abbrev t0 : Fin cfg0.N := ⟨0, by decide⟩
abbrev pt (n : Fin 25) : Fin cfg0.N := ⟨n.val, lt_of_lt_of_le n.isLt (by decide)⟩

/-- The support of both gates, as the first point computes it from its blocks of `x` and `[W1 | W2]`. -/
def P0 : Vec F S1x10000x256 .bf16 := k0_pay1 (iblk m c 1 t0) (iblk m c 2 t0)

/-- What phase-0 point `n` stores: from its adjacency block, the support, the two gate biases and `[Wmu | Wls]`. -/
def ublk (n : Fin 25) : Vec F S1x400x256 .bf16 :=
  k0_pay3 (iblk m c 0 (pt n)) (P0 m c) (iblk m c 4 (pt n)) (iblk m c 5 (pt n)) (iblk m c 3 (pt n))

theorem inb000 : ∀ a, (![0, 0, 0] : Fin 3 → ℕ) a + S1x10000x256.size a ≤ S2x10000x256.size a := by decide
theorem inb100 : ∀ a, (![1, 0, 0] : Fin 3 → ℕ) a + S1x10000x256.size a ≤ S2x10000x256.size a := by decide
theorem inbBlk (j : Fin 25) : ∀ a, (![1, 400 * j.val, 0] : Fin 3 → ℕ) a + S1x400x256.size a ≤ S2x10000x256.size a := by
  intro a
  have := j.isLt
  match a with
  | ⟨0, _⟩ => show 1 + 1 ≤ 2; omega
  | ⟨1, _⟩ => show 400 * j.val + 400 ≤ 10000; omega
  | ⟨2, _⟩ => show 0 + 256 ≤ 256; omega

/-- Plane 0 is the support and the first `n` row blocks of plane 1 are the stored blocks. -/
def Good (n : ℕ) (xs : Vec F S2x10000x256 .bf16) : Prop :=
  box xs ![0, 0, 0] S1x10000x256.size inb000 = P0 m c
    ∧ ∀ j : Fin 25, j.val < n → box xs ![1, 400 * j.val, 0] S1x400x256.size (inbBlk j) = ublk m c j

/-- Right after the first point's first store: plane 0 is the support, nothing else is known. -/
theorem good_zero (xs : Vec F S2x10000x256 .bf16) :
    Good m c 0 (upd xs ![0, 0, 0] S1x10000x256.size (P0 m c)) :=
  ⟨box_upd_self xs _ _ inb000 _, fun j hj => absurd hj (Nat.not_lt_zero _)⟩

/-- Phase-0 point `n` extends what is known by its own block: its store misses plane 0 and the rows of the
    earlier blocks, and what it stores is `u n` because the plane it multiplies by is the support. -/
theorem good_step (n : Fin 25) (xs : Vec F S2x10000x256 .bf16) (h : Good m c n.val xs)
    (off1 : Fin 3 → ℕ) (hoff1 : off1 = ![0, 0, 0]) (inb1 : ∀ a, off1 a + S1x10000x256.size a ≤ S2x10000x256.size a)
    (off2 : Fin 3 → ℕ) (hoff2 : off2 = ![1, 400 * n.val, 0]) :
    Good m c (n.val + 1) (upd xs off2 S1x400x256.size
      (k0_pay3 (iblk m c 0 (pt n)) (box xs off1 S1x10000x256.size inb1) (iblk m c 4 (pt n)) (iblk m c 5 (pt n)) (iblk m c 3 (pt n)))) := by
  subst hoff1 hoff2
  refine ⟨?_, fun j hj => ?_⟩
  · rw [box_upd_of_sep xs _ _ _ _ _ inb000 (0 : Fin 3) (Or.inl (by show 0 + 1 ≤ 1; omega))]
    exact h.1
  · by_cases hjn : j.val < n.val
    · rw [box_upd_of_sep xs _ _ _ _ _ (inbBlk j) (1 : Fin 3) (Or.inl (by
        show 400 * j.val + 400 ≤ 400 * n.val
        omega))]
      exact h.2 j hjn
    · have hjn' : j = n := Fin.ext (by omega)
      subst hjn'
      rw [box_upd_self xs _ _ (inbBlk j)]
      unfold ublk
      rw [← h.1]

/-- Once every block is known, more points change nothing. -/
theorem good_mono {n n' : ℕ} (hn : 25 ≤ n) (xs : Vec F S2x10000x256 .bf16) (h : Good m c n xs) : Good m c n' xs :=
  ⟨h.1, fun j _ => h.2 j (lt_of_lt_of_le j.isLt hn)⟩

/-- Plane 1 once phase 0 is over: row `k` is row `k % 400` of block `k / 400`. -/
def Uall : Vec F S1x10000x256 .bf16 := fun y =>
  ublk m c ⟨(y 1).val / 400, by have : (y 1).val < 10000 := (y 1).isLt; omega⟩
    (fun a => match a with
      | ⟨0, _⟩ => ⟨0, by show 0 < 1; omega⟩
      | ⟨1, _⟩ => ⟨(y 1).val % 400, by show (y 1).val % 400 < 400; omega⟩
      | ⟨2, _⟩ => ⟨(y 2).val, (y 2).isLt⟩)

/-- With all twenty-five blocks known, plane 1 is their stack. -/
theorem good_plane1 (xs : Vec F S2x10000x256 .bf16) (h : Good m c 25 xs)
    (off1 : Fin 3 → ℕ) (hoff1 : off1 = ![1, 0, 0]) (inb1 : ∀ a, off1 a + S1x10000x256.size a ≤ S2x10000x256.size a) :
    box xs off1 S1x10000x256.size inb1 = Uall m c := by
  subst hoff1
  funext y
  have hy1 : (y 1).val < 10000 := (y 1).isLt
  have hy0 : (y 0).val = 0 := by have : (y 0).val < 1 := (y 0).isLt; omega
  unfold Uall
  rw [← h.2 ⟨(y 1).val / 400, by omega⟩ (by show (y 1).val / 400 < 25; omega)]
  unfold box
  congr 1
  funext a
  apply Fin.ext
  match a with
  | ⟨0, _⟩ =>
    show 1 + 1 * (y 0).val = 1 + 1 * 0
    rw [hy0]
  | ⟨1, _⟩ =>
    show 0 + 1 * (y 1).val = 400 * ((y 1).val / 400) + 1 * ((y 1).val % 400)
    have := Nat.div_add_mod (y 1).val 400
    omega
  | ⟨2, _⟩ => rfl

end Cert.Kernel.Hand

end
-- ==== Proof.KData.lean ====
/-
  The proof data of the one pipelined call, and the schedule facts it rests on.

  Over the fifty grid points (two phases of twenty-five) the first branch of the body is taken at point 0
  only, the second exactly in phase 0 and the third exactly in phase 1; the plane the product reads is plane
  `t / 25`, and phase-0 point `t` stores rows `[400 t, 400 t + 400)` of plane 1.  The eight input windows are
  never idle; the two result windows are idle and not written back all through phase 0, and live in phase 1.
  The data: every input buffer holds its block at every point; after a phase-1 point the two result buffers
  hold the two halves of (adjacency block) · (stacked plane 1) plus their biases; between points the carried
  buffer holds some contents that are `Good` for the point count, and nothing is owed.
-/
import proofs.«163584_g73933567034016_fold_wed_c4_870_20_alg».proof.Proof.KCarried

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt F) ℓ) (c : Dev nD)

/-! ## The schedule, decided over the grid -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ 25 ≤ t.val :=
  (by decide +kernel : ∀ t : Fin grid0.N, cond3 (grid0.coords t) ↔ 25 ≤ t.val)
theorem hoff1 : ∀ t : Fin cfg0.N, k0_off1 (grid0.coords t) = ![t.val / 25, 0, 0] :=
  (by decide +kernel : ∀ t : Fin grid0.N, k0_off1 (grid0.coords t) = ![t.val / 25, 0, 0])
theorem hoff2 : ∀ t : Fin cfg0.N, t.val < 25 → k0_off2 (grid0.coords t) = ![1, 400 * t.val, 0] :=
  (by decide +kernel : ∀ t : Fin grid0.N, t.val < 25 → k0_off2 (grid0.coords t) = ![1, 400 * t.val, 0])
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem idle8 : ∀ t : Fin cfg0.N, t.val < 25 → cfg0.idle 8 (grid0.coords t) = true :=
  (by decide +kernel : ∀ t : Fin grid0.N, t.val < 25 → cfg0.idle 8 (grid0.coords t) = true)
theorem noflush8 : ∀ t : Fin cfg0.N, t.val < 25 → (cfg0.win 8).flush t = false :=
  (by decide +kernel : ∀ t : Fin grid0.N, t.val < 25 → win0_8.flush t = false)
theorem live8 : ∀ t : Fin cfg0.N, 25 ≤ t.val → cfg0.idle 8 (grid0.coords t) = false :=
  (by decide +kernel : ∀ t : Fin grid0.N, 25 ≤ t.val → cfg0.idle 8 (grid0.coords t) = false)
theorem idle9 : ∀ t : Fin cfg0.N, t.val < 25 → cfg0.idle 9 (grid0.coords t) = true :=
  (by decide +kernel : ∀ t : Fin grid0.N, t.val < 25 → cfg0.idle 9 (grid0.coords t) = true)
theorem noflush9 : ∀ t : Fin cfg0.N, t.val < 25 → (cfg0.win 9).flush t = false :=
  (by decide +kernel : ∀ t : Fin grid0.N, t.val < 25 → win0_9.flush t = false)
theorem live9 : ∀ t : Fin cfg0.N, 25 ≤ t.val → cfg0.idle 9 (grid0.coords t) = false :=
  (by decide +kernel : ∀ t : Fin grid0.N, 25 ≤ t.val → cfg0.idle 9 (grid0.coords t) = false)

/-! ## The memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x128 .f32 := win0_9.stage (cfg0.slots t 9)
abbrev hs9 (t : Fin cfg0.N) : (ms9 t).IsWhole := hstage0_9 ((cfg0.slots t 9).cast nbuf0_9)
/-- The carried buffer: a whole scoped buffer of the kernel's own. -/
abbrev scM : Memref sig .tc .vmem S2x10000x256 .bf16 := Memref.whole cc0_scratch0

/-- The class invariant with the carried buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The invariant between points -/

/-- Before point `n`: at the start anything; afterwards the carried buffer at contents that are `Good` for
    `n`, and the generator register at some state. -/
def PhiS (c : Dev nD) : ℕ → sProp 𝕄
  | 0 => Pipeline.ΦA spec0 c
  | n + 1 => iprop(iprop((∃ xs, iprop(⌜Good m c (n + 1) xs⌝ ∗ owns (c : Thread nD τ) scM fullShare xs))) ∗ (∃ r, prngReg c r))

theorem PhiS_zero (c : Dev nD) : PhiS m c 0 = Pipeline.ΦA spec0 c := rfl
theorem PhiS_succ (c : Dev nD) (n : ℕ) :
    PhiS m c (n + 1) = iprop(iprop((∃ xs, iprop(⌜Good m c (n + 1) xs⌝ ∗ owns (c : Thread nD τ) scM fullShare xs))) ∗ (∃ r, prngReg c r)) := rfl
theorem PhiS_pos (c : Dev nD) (n : ℕ) (hn : n ≠ 0) :
    PhiS m c n = iprop(iprop((∃ xs, iprop(⌜Good m c n xs⌝ ∗ owns (c : Thread nD τ) scM fullShare xs))) ∗ (∃ r, prngReg c r)) := by
  cases n with
  | zero => exact absurd rfl hn
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay4 (iblk m c 0 t) (Uall m c) (iblk m c 6 t)
    | ⟨9, _⟩ => k0_pay5 (iblk m c 0 t) (Uall m c) (iblk m c 7 t)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay4 (iblk m c 0 t) (Uall m c) (iblk m c 6 t) := by dsimp only [dats]
theorem after9 (c : Dev nD) (t : Fin cfg0.N) : (dats m 0 c).after 9 t = k0_pay5 (iblk m c 0 t) (Uall m c) (iblk m c 7 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

end Cert.Kernel.Hand

end
-- ==== Proof.KBody.lean ====
/-
  The body obligation at every grid point, the run of the whole program, and its frame.

  A point is of one of three kinds.  The first point finds the carried buffer at anything and leaves it
  `Good` for one block.  A later phase-0 point `n` finds it `Good` for `n` blocks — in particular plane 0,
  which it multiplies by, is the support — and leaves it `Good` for `n + 1`; both leave the two result
  buffers as they found them, which is what is asked of a window that is idle and not written back.  A
  phase-1 point finds all twenty-five blocks in place, so the plane it multiplies by is their stack, and it
  leaves the result buffers at the values the proof data name; the carried buffer is untouched.  The launch
  theorem for a body that carries something between points then gives the run, and the run's post read at the
  argument arrays is the frame.
-/
import proofs.«163584_g73933567034016_fold_wed_c4_870_20_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The phase-1 run with the plane it reads named. -/
theorem runC' (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : ¬cond1 i) (hc2 : ¬cond2 i) (hc3 : cond3 i)
    (x0 : Vec F S400x10000 .f32) (x6 : Vec F S1x128 .f32) (x7 : Vec F S1x128 .f32) (xs : Vec F S2x10000x256 .bf16)
    (P : Vec F S1x10000x256 .bf16) (hP : planeAt i xs = P)
    (E : Set ℕ) (K : PUnit → sProp 𝕄) :
    iprop(owns (c : Thread nD τ) arg2 fullShare x0 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare xs
        ∗ (iprop(owns (c : Thread nD τ) arg2 fullShare x0 ∗ owns (c : Thread nD τ) arg8 fullShare x6 ∗ owns (c : Thread nD τ) arg9 fullShare x7
            ∗ owns (c : Thread nD τ) arg10 fullShare (k0_pay4 x0 P x6)
            ∗ owns (c : Thread nD τ) arg11 fullShare (k0_pay5 x0 P x7)
            ∗ owns (c : Thread nD τ) arg12 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  subst hP
  exact runC c i arg2 harg2 arg3 harg3 arg4 harg4 arg5 harg5 arg6 harg6 arg7 harg7 arg8 harg8 arg9 harg9 arg10 harg10 arg11 harg11 arg12 harg12 hc1 hc2 hc3 x0 x6 x7 xs E K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [Phi_castSucc, Phi_succ, PhiS_succ]
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 4 t = owns (c : Thread nD τ) (ms4 t) fullShare (iblk m c 4 t) from by
    unfold Dat.leavesExact; rw [live4 t, after4]]
  rw [show (dats m 0 c).leavesExact 5 t = owns (c : Thread nD τ) (ms5 t) fullShare (iblk m c 5 t) from by
    unfold Dat.leavesExact; rw [live5 t, after5]]
  rw [show (dats m 0 c).leavesExact 6 t = owns (c : Thread nD τ) (ms6 t) fullShare (iblk m c 6 t) from by
    unfold Dat.leavesExact; rw [live6 t, after6]]
  rw [show (dats m 0 c).leavesExact 7 t = owns (c : Thread nD τ) (ms7 t) fullShare (iblk m c 7 t) from by
    unfold Dat.leavesExact; rw [live7 t, after7]]
  by_cases h25 : t.val < 25
  · rw [Dat.leavesExact_idle (dats m 0 c) 8 t (idle8 t h25) (noflush8 t h25),
      Dat.leavesExact_idle (dats m 0 c) 9 t (idle9 t h25) (noflush9 t h25)]
    have hc2 : cond2 (grid0.coords t) := (hcond2 t).mpr h25
    have hc3 : ¬cond3 (grid0.coords t) := fun h => absurd ((hcond3 t).mp h) (by omega)
    by_cases hz : t.val = 0
    · have hc1 : cond1 (grid0.coords t) := (hcond1 t).mpr hz
      have hP : PhiS m c t.val = Pipeline.ΦA spec0 c := by rw [hz]; rfl
      rw [hP, PhiA_eq]
      have ht : t = t0 := Fin.ext hz
      iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc1 hc2 hc3
        (iblk m c 0 t) (iblk m c 1 t) (iblk m c 2 t) (iblk m c 4 t) (iblk m c 5 t) (iblk m c 3 t) xs Set.univ _)
      isplitl [H0]; · iexact H0
      isplitl [H1]; · iexact H1
      isplitl [H2]; · iexact H2
      isplitl [H4]; · iexact H4
      isplitl [H5]; · iexact H5
      isplitl [H3]; · iexact H3
      isplitl [HS]; · iexact HS
      iintro ⟨H0, H1, H2, H4, H5, H3, HS⟩
      isplitl [HS Hg]
      · isplitl [HS]
        · iexists _; isplitr; swap; · iexact HS
          ipureintro
          subst ht
          exact good_step m c ⟨0, by decide⟩ _ (good_zero m c xs) _ ((hoff1 t0).trans (by decide)) _ _ (hoff2 t0 (by decide))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond1 (grid0.coords t) := fun h => hz ((hcond1 t).mp h)
      rw [PhiS_pos m c _ hz]
      iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc1 hc2 hc3
        (iblk m c 0 t) (iblk m c 4 t) (iblk m c 5 t) (iblk m c 3 t) xs Set.univ _)
      isplitl [H0]; · iexact H0
      isplitl [H4]; · iexact H4
      isplitl [H5]; · iexact H5
      isplitl [H3]; · iexact H3
      isplitl [HS]; · iexact HS
      iintro ⟨H0, H4, H5, H3, HS⟩
      isplitl [HS Hg]
      · isplitl [HS]
        · iexists _; isplitr; swap; · iexact HS
          ipureintro
          exact good_step m c ⟨t.val, h25⟩ xs hg _ ((hoff1 t).trans (by rw [Nat.div_eq_of_lt h25])) _ _ (hoff2 t h25)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have h25' : 25 ≤ t.val := Nat.le_of_not_lt h25
    have hN : t.val < 50 := lt_of_lt_of_eq t.isLt (show cfg0.N = 50 from N_0)
    have hc1 : ¬cond1 (grid0.coords t) := fun h => absurd ((hcond1 t).mp h) (by omega)
    have hc2 : ¬cond2 (grid0.coords t) := fun h => h25 ((hcond2 t).mp h)
    have hc3 : cond3 (grid0.coords t) := (hcond3 t).mpr h25'
    rw [show (dats m 0 c).leavesExact 8 t = owns (c : Thread nD τ) (ms8 t) fullShare ((dats m 0 c).after 8 t) from by
      unfold Dat.leavesExact; rw [live8 t h25'], after8]
    rw [show (dats m 0 c).leavesExact 9 t = owns (c : Thread nD τ) (ms9 t) fullShare ((dats m 0 c).after 9 t) from by
      unfold Dat.leavesExact; rw [live9 t h25'], after9]
    rw [PhiS_pos m c _ (by omega : t.val ≠ 0)]
    iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hpl : planeAt (grid0.coords t) xs = Uall m c :=
      good_plane1 m c xs (good_mono m c h25' xs hg) _ ((hoff1 t).trans (by rw [show t.val / 25 = 1 from by omega])) _
    iapply (runC' c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc1 hc2 hc3
      (iblk m c 0 t) (iblk m c 6 t) (iblk m c 7 t) xs (Uall m c) hpl Set.univ _)
    isplitl [H0]; · iexact H0
    isplitl [H6]; · iexact H6
    isplitl [H7]; · iexact H7
    isplitl [H8]; · iexists _; iexact H8
    isplitl [H9]; · iexists _; iexact H9
    isplitl [HS]; · iexact HS
    iintro ⟨H0, H6, H7, H8, H9, HS⟩
    isplitl [HS Hg]
    · isplitl [HS]
      · iexists _; isplitr; swap; · iexact HS
        ipureintro
        exact good_mono m c h25' xs hg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero]

theorem hout (c : Dev nD) : (dats m 0 c).Φ (Fin.last cfg0.N) ⊢ Pipeline.ΦA spec0 c := by
  rw [show (dats m 0 c).Φ (Fin.last cfg0.N) = PhiS m c 50 from rfl, PhiS_pos m c 50 (by decide), PhiA_eq]
  iintro ⟨⟨%xs, %hg, HS⟩, Hg⟩
  isplitl [HS]
  · iexists _; iexact HS
  iexact Hg

/-- Every weakly fair execution of the program terminates, and its final state has every array of the call at
    what the library computes from the proof data and every other buffer as the host prefix left it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.Kernel.Hand

end
-- ==== Proof.BodyRuns.lean ====
/-
  The kernel body run once in each of the three ways the grid meets it.

  The grid is two phases of twenty-five points.  The body always multiplies its block of four hundred
  adjacency rows by one of the two planes of the carried buffer (plane `p` in phase `p`).  At the very first
  point it first fills plane 0 with the support of both gates, `x · [W1 | W2]`.  In phase 0 it applies the
  gate to the product and stores the block's rows of `t · [Wmu | Wls]` into plane 1; in phase 1 it adds the
  biases and stores the two result blocks.  Each run is stated over arbitrary whole buffers at named
  contents: the inputs come back unchanged, and the carried buffer (resp. the two result buffers) comes back
  with exactly the boxes the stores overwrote, as functions of what was loaded.
-/
import proofs.«163584_g73933567034016_fold_wed_c4_870_20_alg».proof.Proof.Gen.KernelIdeal.Frame
import proofs.«163584_g73933567034016_fold_wed_c4_870_20_alg».proof.Proof.Gen.KernelIdeal.Skeleton
import Idealize.ShloMosaic.Lib.Pipeline.FrameBody
import Idealize.ShloMosaic.Lib.Ring
import Idealize.ShloMosaic.Lib.Tactic
import proofs.«163584_g73933567034016_fold_wed_c4_870_20_alg».proof.Proof.LibBoxUpdate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev cond2 (i : grid0.Coords) : Prop := k0_cond2 i = 1#1
abbrev cond3 (i : grid0.Coords) : Prop := k0_cond3 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A load of a whole buffer reads its contents. -/
theorem readAt_whole {S : Shape} {e : EltTy} (M : Memref sig .tc .vmem S e) (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- A load of a box of a buffer reads the box of its contents. -/
theorem readAt_box {S : Shape} {e : EltTy} (M : Memref sig .tc .vmem S e) (h : M.IsWhole) (off size : Fin S.rank → ℕ)
    (inb : ∀ a, off a + size a ≤ S.size a) (x : S.Idx → Elt F e) :
    View.readAt (Elt F) M.view (Rect.unit off size inb).toLoadRect (h.unread x) = box x off size inb := by
  rw [View.readAt_eq_ld, h.read_unread]; rfl

/-- The plane of the carried buffer the product reads at a point, and the rows of plane 1 a phase-0 point stores. -/
abbrev planeAt (i : grid0.Coords) (xs : Vec F S2x10000x256 .bf16) : Vec F S1x10000x256 .bf16 :=
  box xs (k0_off1 i) S1x10000x256.size (k0_off1_inb i)

set_option maxHeartbeats 1000000 in
/-- Phase 1: nothing is stored into the carried buffer; the two result buffers end at the product's two halves
    plus their biases. -/
theorem runC (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : ¬cond1 i) (hc2 : ¬cond2 i) (hc3 : cond3 i)
    (x0 : Vec F S400x10000 .f32) (x6 : Vec F S1x128 .f32) (x7 : Vec F S1x128 .f32) (xs : Vec F S2x10000x256 .bf16)
    (E : Set ℕ) (K : PUnit → sProp 𝕄) :
    iprop(owns (c : Thread nD τ) arg2 fullShare x0 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare xs
        ∗ (iprop(owns (c : Thread nD τ) arg2 fullShare x0 ∗ owns (c : Thread nD τ) arg8 fullShare x6 ∗ owns (c : Thread nD τ) arg9 fullShare x7
            ∗ owns (c : Thread nD τ) arg10 fullShare (k0_pay4 x0 (planeAt i xs) x6)
            ∗ owns (c : Thread nD τ) arg11 fullShare (k0_pay5 x0 (planeAt i xs) x7)
            ∗ owns (c : Thread nD τ) arg12 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f0, %hf0, H0⟩, ⟨%f6, %hf6, H6⟩, ⟨%f7, %hf7, H7⟩, ⟨%d8, %f8, -, H8⟩, ⟨%d9, %f9, -, H9⟩, ⟨%fs, %hfs, HS⟩, Hk⟩
  obtain rfl := harg2.eq_unread hf0; obtain rfl := harg8.eq_unread hf6; obtain rfl := harg9.eq_unread hf7; obtain rfl := harg12.eq_unread hfs
  sl_exec (disch := first | exact hc1 | exact hc2 | exact hc3)
  sl_step
  iapply Hk
  isplitl [H0]; · iexists _; isplitr; · ipureintro; exact hf0
                  iexact H0
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    rw [read_writes_whole_unit _ _ hz2, readAt_whole _ _ hz2, readAt_whole _ _ hz2, readAt_box]
  isplitl [H9]
  · iexists _; isplitr; swap; · iexact H9
    ipureintro
    rw [read_writes_whole_unit _ _ hz2, readAt_whole _ _ hz2, readAt_whole _ _ hz2, readAt_box]
  iexists _; isplitr; · ipureintro; exact hfs
  iexact HS

set_option maxHeartbeats 1000000 in
/-- Phase 0 after the first point: the block's rows of plane 1 are overwritten by the gated product times the
    second weight pair; everything else in the carried buffer stays. -/
theorem runB (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : ¬cond1 i) (hc2 : cond2 i) (hc3 : ¬cond3 i)
    (x0 : Vec F S400x10000 .f32) (x4 x5 : Vec F S1x128 .f32) (x3 : Vec F S128x256 .bf16) (xs : Vec F S2x10000x256 .bf16)
    (E : Set ℕ) (K : PUnit → sProp 𝕄) :
    iprop(owns (c : Thread nD τ) arg2 fullShare x0 ∗ owns (c : Thread nD τ) arg6 fullShare x4 ∗ owns (c : Thread nD τ) arg7 fullShare x5
        ∗ owns (c : Thread nD τ) arg5 fullShare x3
        ∗ owns (c : Thread nD τ) arg12 fullShare xs
        ∗ (iprop(owns (c : Thread nD τ) arg2 fullShare x0 ∗ owns (c : Thread nD τ) arg6 fullShare x4 ∗ owns (c : Thread nD τ) arg7 fullShare x5
            ∗ owns (c : Thread nD τ) arg5 fullShare x3
            ∗ owns (c : Thread nD τ) arg12 fullShare (upd xs (k0_off2 i) S1x400x256.size (k0_pay3 x0 (planeAt i xs) x4 x5 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f0, %hf0, H0⟩, ⟨%f4, %hf4, H4⟩, ⟨%f5, %hf5, H5⟩, ⟨%f3, %hf3, H3⟩, ⟨%fs, %hfs, HS⟩, Hk⟩
  obtain rfl := harg2.eq_unread hf0; obtain rfl := harg6.eq_unread hf4; obtain rfl := harg7.eq_unread hf5; obtain rfl := harg5.eq_unread hf3; obtain rfl := harg12.eq_unread hfs
  sl_exec (disch := first | exact hc1 | exact hc2 | exact hc3)
  sl_step
  iapply Hk
  isplitl [H0]; · iexists _; isplitr; · ipureintro; exact hf0
                  iexact H0
  isplitl [H4]; · iexists _; isplitr; · ipureintro; exact hf4
                  iexact H4
  isplitl [H5]; · iexists _; isplitr; · ipureintro; exact hf5
                  iexact H5
  isplitl [H3]; · iexists _; isplitr; · ipureintro; exact hf3
                  iexact H3
  iexists _; isplitr; swap; · iexact HS
  ipureintro
  rw [read_writes_cons_upd, View.writes_nil, harg12.read_unread, readAt_whole _ _ hz2, readAt_whole _ _ hz2, readAt_whole _ _ hz2,
    readAt_whole _ _ hz2, readAt_box]

set_option maxHeartbeats 1000000 in
/-- The first point: plane 0 is filled with the support of both gates, then the point proceeds as the other
    phase-0 points do, reading the plane it has just filled. -/
theorem runA (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : cond1 i) (hc2 : cond2 i) (hc3 : ¬cond3 i)
    (x0 : Vec F S400x10000 .f32) (x1 : Vec F S10000x128 .f32) (x2 : Vec F S128x256 .bf16) (x4 x5 : Vec F S1x128 .f32) (x3 : Vec F S128x256 .bf16) (xs : Vec F S2x10000x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5
        ∗ owns (c : Thread nD τ) arg5 fullShare x3
        ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5
            ∗ owns (c : Thread nD τ) arg5 fullShare x3
            ∗ owns (c : Thread nD τ) arg12 fullShare
                (upd (upd xs ![0, 0, 0] S1x10000x256.size (k0_pay1 x1 x2)) (k0_off2 i) S1x400x256.size
                  (k0_pay3 x0 (planeAt i (upd xs ![0, 0, 0] S1x10000x256.size (k0_pay1 x1 x2))) x4 x5 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f4, %hf4, H4⟩, ⟨%f5, %hf5, H5⟩, ⟨%f3, %hf3, H3⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hf5; obtain rfl := harg5.eq_unread hf3; obtain rfl := harg12.eq_unread hfs
  sl_exec (disch := first | exact hc1 | exact hc2 | exact hc3)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]; · iexists _; isplitr; · ipureintro; exact hf4
                  iexact H4
  isplitl [H5]; · iexists _; isplitr; · ipureintro; exact hf5
                  iexact H5
  isplitl [H3]; · iexists _; isplitr; · ipureintro; exact hf3
                  iexact H3
  iexists _; isplitr; swap; · iexact HS
  ipureintro
  unfold runA.sl.HS_1
  rw [read_writes_cons_upd, read_writes_cons_upd, View.writes_nil, harg12.read_unread, readAt_whole _ _ hz2, readAt_whole _ _ hz2, readAt_whole _ _ hz2,
    readAt_whole _ _ hz2, readAt_whole _ _ hz2, readAt_whole _ _ hz2]
  rw [View.readAt_eq_ld, read_writes_cons_upd, View.writes_nil, harg12.read_unread]
  rfl

end Cert.KernelIdeal.Hand

end
-- ==== Proof.Carried.lean ====
/-
  What the carried buffer is known to hold between grid points.

  Nothing is known of the buffer when the kernel starts.  The first point fills plane 0 with the support
  `P0 = x · [W1 | W2]`, and phase-0 point `n` overwrites rows `[400 n, 400 n + 400)` of plane 1 with
  `u n`: the gate applied to (adjacency block `n`) · `P0`, times `[Wmu | Wls]`.  So before point `n`
  (for `n ≥ 1`) plane 0 is `P0` and the first `min n 25` row blocks of plane 1 are `u 0, …, u (n-1)`
  (`Good n`); the stores of a point go to rows no earlier point wrote and never to plane 0, so each phase-0
  point extends this by one block (`good_step`), and once all twenty-five blocks are in, plane 1 is the array
  `Uall` that stacks them (`good_plane1`), whatever the buffer held at the start.
-/
import proofs.«163584_g73933567034016_fold_wed_c4_870_20_alg».proof.Proof.BodyRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt F) ℓ) (c : Dev nD)

/-- The first grid point, and phase-0 point `n`. -/
abbrev t0 : Fin cfg0.N := ⟨0, by decide⟩
abbrev pt (n : Fin 25) : Fin cfg0.N := ⟨n.val, lt_of_lt_of_le n.isLt (by decide)⟩

/-- The support of both gates, as the first point computes it from its blocks of `x` and `[W1 | W2]`. -/
def P0 : Vec F S1x10000x256 .bf16 := k0_pay1 (iblk m c 1 t0) (iblk m c 2 t0)

/-- What phase-0 point `n` stores: from its adjacency block, the support, the two gate biases and `[Wmu | Wls]`. -/
def ublk (n : Fin 25) : Vec F S1x400x256 .bf16 :=
  k0_pay3 (iblk m c 0 (pt n)) (P0 m c) (iblk m c 4 (pt n)) (iblk m c 5 (pt n)) (iblk m c 3 (pt n))

theorem inb000 : ∀ a, (![0, 0, 0] : Fin 3 → ℕ) a + S1x10000x256.size a ≤ S2x10000x256.size a := by decide
theorem inb100 : ∀ a, (![1, 0, 0] : Fin 3 → ℕ) a + S1x10000x256.size a ≤ S2x10000x256.size a := by decide
theorem inbBlk (j : Fin 25) : ∀ a, (![1, 400 * j.val, 0] : Fin 3 → ℕ) a + S1x400x256.size a ≤ S2x10000x256.size a := by
  intro a
  have := j.isLt
  match a with
  | ⟨0, _⟩ => show 1 + 1 ≤ 2; omega
  | ⟨1, _⟩ => show 400 * j.val + 400 ≤ 10000; omega
  | ⟨2, _⟩ => show 0 + 256 ≤ 256; omega

/-- Plane 0 is the support and the first `n` row blocks of plane 1 are the stored blocks. -/
def Good (n : ℕ) (xs : Vec F S2x10000x256 .bf16) : Prop :=
  box xs ![0, 0, 0] S1x10000x256.size inb000 = P0 m c
    ∧ ∀ j : Fin 25, j.val < n → box xs ![1, 400 * j.val, 0] S1x400x256.size (inbBlk j) = ublk m c j

/-- Right after the first point's first store: plane 0 is the support, nothing else is known. -/
theorem good_zero (xs : Vec F S2x10000x256 .bf16) :
    Good m c 0 (upd xs ![0, 0, 0] S1x10000x256.size (P0 m c)) :=
  ⟨box_upd_self xs _ _ inb000 _, fun j hj => absurd hj (Nat.not_lt_zero _)⟩

/-- Phase-0 point `n` extends what is known by its own block: its store misses plane 0 and the rows of the
    earlier blocks, and what it stores is `u n` because the plane it multiplies by is the support. -/
theorem good_step (n : Fin 25) (xs : Vec F S2x10000x256 .bf16) (h : Good m c n.val xs)
    (off1 : Fin 3 → ℕ) (hoff1 : off1 = ![0, 0, 0]) (inb1 : ∀ a, off1 a + S1x10000x256.size a ≤ S2x10000x256.size a)
    (off2 : Fin 3 → ℕ) (hoff2 : off2 = ![1, 400 * n.val, 0]) :
    Good m c (n.val + 1) (upd xs off2 S1x400x256.size
      (k0_pay3 (iblk m c 0 (pt n)) (box xs off1 S1x10000x256.size inb1) (iblk m c 4 (pt n)) (iblk m c 5 (pt n)) (iblk m c 3 (pt n)))) := by
  subst hoff1 hoff2
  refine ⟨?_, fun j hj => ?_⟩
  · rw [box_upd_of_sep xs _ _ _ _ _ inb000 (0 : Fin 3) (Or.inl (by show 0 + 1 ≤ 1; omega))]
    exact h.1
  · by_cases hjn : j.val < n.val
    · rw [box_upd_of_sep xs _ _ _ _ _ (inbBlk j) (1 : Fin 3) (Or.inl (by
        show 400 * j.val + 400 ≤ 400 * n.val
        omega))]
      exact h.2 j hjn
    · have hjn' : j = n := Fin.ext (by omega)
      subst hjn'
      rw [box_upd_self xs _ _ (inbBlk j)]
      unfold ublk
      rw [← h.1]

/-- Once every block is known, more points change nothing. -/
theorem good_mono {n n' : ℕ} (hn : 25 ≤ n) (xs : Vec F S2x10000x256 .bf16) (h : Good m c n xs) : Good m c n' xs :=
  ⟨h.1, fun j _ => h.2 j (lt_of_lt_of_le j.isLt hn)⟩

/-- Plane 1 once phase 0 is over: row `k` is row `k % 400` of block `k / 400`. -/
def Uall : Vec F S1x10000x256 .bf16 := fun y =>
  ublk m c ⟨(y 1).val / 400, by have : (y 1).val < 10000 := (y 1).isLt; omega⟩
    (fun a => match a with
      | ⟨0, _⟩ => ⟨0, by show 0 < 1; omega⟩
      | ⟨1, _⟩ => ⟨(y 1).val % 400, by show (y 1).val % 400 < 400; omega⟩
      | ⟨2, _⟩ => ⟨(y 2).val, (y 2).isLt⟩)

/-- With all twenty-five blocks known, plane 1 is their stack. -/
theorem good_plane1 (xs : Vec F S2x10000x256 .bf16) (h : Good m c 25 xs)
    (off1 : Fin 3 → ℕ) (hoff1 : off1 = ![1, 0, 0]) (inb1 : ∀ a, off1 a + S1x10000x256.size a ≤ S2x10000x256.size a) :
    box xs off1 S1x10000x256.size inb1 = Uall m c := by
  subst hoff1
  funext y
  have hy1 : (y 1).val < 10000 := (y 1).isLt
  have hy0 : (y 0).val = 0 := by have : (y 0).val < 1 := (y 0).isLt; omega
  unfold Uall
  rw [← h.2 ⟨(y 1).val / 400, by omega⟩ (by show (y 1).val / 400 < 25; omega)]
  unfold box
  congr 1
  funext a
  apply Fin.ext
  match a with
  | ⟨0, _⟩ =>
    show 1 + 1 * (y 0).val = 1 + 1 * 0
    rw [hy0]
  | ⟨1, _⟩ =>
    show 0 + 1 * (y 1).val = 400 * ((y 1).val / 400) + 1 * ((y 1).val % 400)
    have := Nat.div_add_mod (y 1).val 400
    omega
  | ⟨2, _⟩ => rfl

end Cert.KernelIdeal.Hand

end
-- ==== Proof.Data.lean ====
/-
  The proof data of the one pipelined call, and the schedule facts it rests on.

  Over the fifty grid points (two phases of twenty-five) the first branch of the body is taken at point 0
  only, the second exactly in phase 0 and the third exactly in phase 1; the plane the product reads is plane
  `t / 25`, and phase-0 point `t` stores rows `[400 t, 400 t + 400)` of plane 1.  The eight input windows are
  never idle; the two result windows are idle and not written back all through phase 0, and live in phase 1.
  The data: every input buffer holds its block at every point; after a phase-1 point the two result buffers
  hold the two halves of (adjacency block) · (stacked plane 1) plus their biases; between points the carried
  buffer holds some contents that are `Good` for the point count, and nothing is owed.
-/
import proofs.«163584_g73933567034016_fold_wed_c4_870_20_alg».proof.Proof.Carried

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt F) ℓ) (c : Dev nD)

/-! ## The schedule, decided over the grid -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ 25 ≤ t.val :=
  (by decide +kernel : ∀ t : Fin grid0.N, cond3 (grid0.coords t) ↔ 25 ≤ t.val)
theorem hoff1 : ∀ t : Fin cfg0.N, k0_off1 (grid0.coords t) = ![t.val / 25, 0, 0] :=
  (by decide +kernel : ∀ t : Fin grid0.N, k0_off1 (grid0.coords t) = ![t.val / 25, 0, 0])
theorem hoff2 : ∀ t : Fin cfg0.N, t.val < 25 → k0_off2 (grid0.coords t) = ![1, 400 * t.val, 0] :=
  (by decide +kernel : ∀ t : Fin grid0.N, t.val < 25 → k0_off2 (grid0.coords t) = ![1, 400 * t.val, 0])
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem idle8 : ∀ t : Fin cfg0.N, t.val < 25 → cfg0.idle 8 (grid0.coords t) = true :=
  (by decide +kernel : ∀ t : Fin grid0.N, t.val < 25 → cfg0.idle 8 (grid0.coords t) = true)
theorem noflush8 : ∀ t : Fin cfg0.N, t.val < 25 → (cfg0.win 8).flush t = false :=
  (by decide +kernel : ∀ t : Fin grid0.N, t.val < 25 → win0_8.flush t = false)
theorem live8 : ∀ t : Fin cfg0.N, 25 ≤ t.val → cfg0.idle 8 (grid0.coords t) = false :=
  (by decide +kernel : ∀ t : Fin grid0.N, 25 ≤ t.val → cfg0.idle 8 (grid0.coords t) = false)
theorem idle9 : ∀ t : Fin cfg0.N, t.val < 25 → cfg0.idle 9 (grid0.coords t) = true :=
  (by decide +kernel : ∀ t : Fin grid0.N, t.val < 25 → cfg0.idle 9 (grid0.coords t) = true)
theorem noflush9 : ∀ t : Fin cfg0.N, t.val < 25 → (cfg0.win 9).flush t = false :=
  (by decide +kernel : ∀ t : Fin grid0.N, t.val < 25 → win0_9.flush t = false)
theorem live9 : ∀ t : Fin cfg0.N, 25 ≤ t.val → cfg0.idle 9 (grid0.coords t) = false :=
  (by decide +kernel : ∀ t : Fin grid0.N, 25 ≤ t.val → cfg0.idle 9 (grid0.coords t) = false)

/-! ## The memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x128 .f32 := win0_9.stage (cfg0.slots t 9)
abbrev hs9 (t : Fin cfg0.N) : (ms9 t).IsWhole := hstage0_9 ((cfg0.slots t 9).cast nbuf0_9)
/-- The carried buffer: a whole scoped buffer of the kernel's own. -/
abbrev scM : Memref sig .tc .vmem S2x10000x256 .bf16 := Memref.whole cc0_scratch0

/-- The class invariant with the carried buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The invariant between points -/

/-- Before point `n`: at the start anything; afterwards the carried buffer at contents that are `Good` for
    `n`, and the generator register at some state. -/
def PhiS (c : Dev nD) : ℕ → sProp 𝕄
  | 0 => Pipeline.ΦA spec0 c
  | n + 1 => iprop(iprop((∃ xs, iprop(⌜Good m c (n + 1) xs⌝ ∗ owns (c : Thread nD τ) scM fullShare xs))) ∗ (∃ r, prngReg c r))

theorem PhiS_zero (c : Dev nD) : PhiS m c 0 = Pipeline.ΦA spec0 c := rfl
theorem PhiS_succ (c : Dev nD) (n : ℕ) :
    PhiS m c (n + 1) = iprop(iprop((∃ xs, iprop(⌜Good m c (n + 1) xs⌝ ∗ owns (c : Thread nD τ) scM fullShare xs))) ∗ (∃ r, prngReg c r)) := rfl
theorem PhiS_pos (c : Dev nD) (n : ℕ) (hn : n ≠ 0) :
    PhiS m c n = iprop(iprop((∃ xs, iprop(⌜Good m c n xs⌝ ∗ owns (c : Thread nD τ) scM fullShare xs))) ∗ (∃ r, prngReg c r)) := by
  cases n with
  | zero => exact absurd rfl hn
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay4 (iblk m c 0 t) (Uall m c) (iblk m c 6 t)
    | ⟨9, _⟩ => k0_pay5 (iblk m c 0 t) (Uall m c) (iblk m c 7 t)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay4 (iblk m c 0 t) (Uall m c) (iblk m c 6 t) := by dsimp only [dats]
theorem after9 (c : Dev nD) (t : Fin cfg0.N) : (dats m 0 c).after 9 t = k0_pay5 (iblk m c 0 t) (Uall m c) (iblk m c 7 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

end Cert.KernelIdeal.Hand

end
-- ==== Proof.Body.lean ====
/-
  The body obligation at every grid point, the run of the whole program, and its frame.

  A point is of one of three kinds.  The first point finds the carried buffer at anything and leaves it
  `Good` for one block.  A later phase-0 point `n` finds it `Good` for `n` blocks — in particular plane 0,
  which it multiplies by, is the support — and leaves it `Good` for `n + 1`; both leave the two result
  buffers as they found them, which is what is asked of a window that is idle and not written back.  A
  phase-1 point finds all twenty-five blocks in place, so the plane it multiplies by is their stack, and it
  leaves the result buffers at the values the proof data name; the carried buffer is untouched.  The launch
  theorem for a body that carries something between points then gives the run, and the run's post read at the
  argument arrays is the frame.
-/
import proofs.«163584_g73933567034016_fold_wed_c4_870_20_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The phase-1 run with the plane it reads named. -/
theorem runC' (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x256 .bf16) (harg4 : arg4.IsWhole) (arg5 : Memref sig .tc .vmem S128x256 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S400x128 .f32) (harg10 : arg10.IsWhole) (arg11 : Memref sig .tc .vmem S400x128 .f32) (harg11 : arg11.IsWhole)
    (arg12 : Memref sig .tc .vmem S2x10000x256 .bf16) (harg12 : arg12.IsWhole)
    (hc1 : ¬cond1 i) (hc2 : ¬cond2 i) (hc3 : cond3 i)
    (x0 : Vec F S400x10000 .f32) (x6 : Vec F S1x128 .f32) (x7 : Vec F S1x128 .f32) (xs : Vec F S2x10000x256 .bf16)
    (P : Vec F S1x10000x256 .bf16) (hP : planeAt i xs = P)
    (E : Set ℕ) (K : PUnit → sProp 𝕄) :
    iprop(owns (c : Thread nD τ) arg2 fullShare x0 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare xs
        ∗ (iprop(owns (c : Thread nD τ) arg2 fullShare x0 ∗ owns (c : Thread nD τ) arg8 fullShare x6 ∗ owns (c : Thread nD τ) arg9 fullShare x7
            ∗ owns (c : Thread nD τ) arg10 fullShare (k0_pay4 x0 P x6)
            ∗ owns (c : Thread nD τ) arg11 fullShare (k0_pay5 x0 P x7)
            ∗ owns (c : Thread nD τ) arg12 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  subst hP
  exact runC c i arg2 harg2 arg3 harg3 arg4 harg4 arg5 harg5 arg6 harg6 arg7 harg7 arg8 harg8 arg9 harg9 arg10 harg10 arg11 harg11 arg12 harg12 hc1 hc2 hc3 x0 x6 x7 xs E K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [Phi_castSucc, Phi_succ, PhiS_succ]
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 4 t = owns (c : Thread nD τ) (ms4 t) fullShare (iblk m c 4 t) from by
    unfold Dat.leavesExact; rw [live4 t, after4]]
  rw [show (dats m 0 c).leavesExact 5 t = owns (c : Thread nD τ) (ms5 t) fullShare (iblk m c 5 t) from by
    unfold Dat.leavesExact; rw [live5 t, after5]]
  rw [show (dats m 0 c).leavesExact 6 t = owns (c : Thread nD τ) (ms6 t) fullShare (iblk m c 6 t) from by
    unfold Dat.leavesExact; rw [live6 t, after6]]
  rw [show (dats m 0 c).leavesExact 7 t = owns (c : Thread nD τ) (ms7 t) fullShare (iblk m c 7 t) from by
    unfold Dat.leavesExact; rw [live7 t, after7]]
  by_cases h25 : t.val < 25
  · rw [Dat.leavesExact_idle (dats m 0 c) 8 t (idle8 t h25) (noflush8 t h25),
      Dat.leavesExact_idle (dats m 0 c) 9 t (idle9 t h25) (noflush9 t h25)]
    have hc2 : cond2 (grid0.coords t) := (hcond2 t).mpr h25
    have hc3 : ¬cond3 (grid0.coords t) := fun h => absurd ((hcond3 t).mp h) (by omega)
    by_cases hz : t.val = 0
    · have hc1 : cond1 (grid0.coords t) := (hcond1 t).mpr hz
      have hP : PhiS m c t.val = Pipeline.ΦA spec0 c := by rw [hz]; rfl
      rw [hP, PhiA_eq]
      have ht : t = t0 := Fin.ext hz
      iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc1 hc2 hc3
        (iblk m c 0 t) (iblk m c 1 t) (iblk m c 2 t) (iblk m c 4 t) (iblk m c 5 t) (iblk m c 3 t) xs Set.univ _)
      isplitl [H0]; · iexact H0
      isplitl [H1]; · iexact H1
      isplitl [H2]; · iexact H2
      isplitl [H4]; · iexact H4
      isplitl [H5]; · iexact H5
      isplitl [H3]; · iexact H3
      isplitl [HS]; · iexact HS
      iintro ⟨H0, H1, H2, H4, H5, H3, HS⟩
      isplitl [HS Hg]
      · isplitl [HS]
        · iexists _; isplitr; swap; · iexact HS
          ipureintro
          subst ht
          exact good_step m c ⟨0, by decide⟩ _ (good_zero m c xs) _ ((hoff1 t0).trans (by decide)) _ _ (hoff2 t0 (by decide))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond1 (grid0.coords t) := fun h => hz ((hcond1 t).mp h)
      rw [PhiS_pos m c _ hz]
      iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc1 hc2 hc3
        (iblk m c 0 t) (iblk m c 4 t) (iblk m c 5 t) (iblk m c 3 t) xs Set.univ _)
      isplitl [H0]; · iexact H0
      isplitl [H4]; · iexact H4
      isplitl [H5]; · iexact H5
      isplitl [H3]; · iexact H3
      isplitl [HS]; · iexact HS
      iintro ⟨H0, H4, H5, H3, HS⟩
      isplitl [HS Hg]
      · isplitl [HS]
        · iexists _; isplitr; swap; · iexact HS
          ipureintro
          exact good_step m c ⟨t.val, h25⟩ xs hg _ ((hoff1 t).trans (by rw [Nat.div_eq_of_lt h25])) _ _ (hoff2 t h25)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have h25' : 25 ≤ t.val := Nat.le_of_not_lt h25
    have hN : t.val < 50 := lt_of_lt_of_eq t.isLt (show cfg0.N = 50 from N_0)
    have hc1 : ¬cond1 (grid0.coords t) := fun h => absurd ((hcond1 t).mp h) (by omega)
    have hc2 : ¬cond2 (grid0.coords t) := fun h => h25 ((hcond2 t).mp h)
    have hc3 : cond3 (grid0.coords t) := (hcond3 t).mpr h25'
    rw [show (dats m 0 c).leavesExact 8 t = owns (c : Thread nD τ) (ms8 t) fullShare ((dats m 0 c).after 8 t) from by
      unfold Dat.leavesExact; rw [live8 t h25'], after8]
    rw [show (dats m 0 c).leavesExact 9 t = owns (c : Thread nD τ) (ms9 t) fullShare ((dats m 0 c).after 9 t) from by
      unfold Dat.leavesExact; rw [live9 t h25'], after9]
    rw [PhiS_pos m c _ (by omega : t.val ≠ 0)]
    iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hpl : planeAt (grid0.coords t) xs = Uall m c :=
      good_plane1 m c xs (good_mono m c h25' xs hg) _ ((hoff1 t).trans (by rw [show t.val / 25 = 1 from by omega])) _
    iapply (runC' c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc1 hc2 hc3
      (iblk m c 0 t) (iblk m c 6 t) (iblk m c 7 t) xs (Uall m c) hpl Set.univ _)
    isplitl [H0]; · iexact H0
    isplitl [H6]; · iexact H6
    isplitl [H7]; · iexact H7
    isplitl [H8]; · iexists _; iexact H8
    isplitl [H9]; · iexists _; iexact H9
    isplitl [HS]; · iexact HS
    iintro ⟨H0, H6, H7, H8, H9, HS⟩
    isplitl [HS Hg]
    · isplitl [HS]
      · iexists _; isplitr; swap; · iexact HS
        ipureintro
        exact good_mono m c h25' xs hg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero]

theorem hout (c : Dev nD) : (dats m 0 c).Φ (Fin.last cfg0.N) ⊢ Pipeline.ΦA spec0 c := by
  rw [show (dats m 0 c).Φ (Fin.last cfg0.N) = PhiS m c 50 from rfl, PhiS_pos m c 50 (by decide), PhiA_eq]
  iintro ⟨⟨%xs, %hg, HS⟩, Hg⟩
  isplitl [HS]
  · iexists _; iexact HS
  iexact Hg

/-- Every weakly fair execution of the program terminates, and its final state has every array of the call at
    what the library computes from the proof data and every other buffer as the host prefix left it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.KernelIdeal.Hand

end
-- ==== Proof.FinalArrays.lean ====
/-
  The two result arrays after the run, as whole-array functions.

  The grid has fifty points, two phases of twenty-five.  The two result windows cut their arrays into twenty-five
  blocks of 400 rows and are written back exactly at the phase-1 points `t ≥ 25`, point `t` writing the block of
  row index `49 - t`.  So row `R` of a result array is written once, by the point `49 - R / 400`, as row `R % 400`
  of what that point leaves in the window's buffer; the blocks of the twenty-five phase-1 points tile the array, so
  after the run the array is that function of the index everywhere, whatever it held before.
-/
import proofs.«163584_g73933567034016_fold_wed_c4_870_20_alg».proof.Proof.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (c : Dev nD)

/-- The grid point that writes row `R` of a result array back: `49 - R / 400`. -/
def tOf (y : S10000x128.Idx) : Fin cfg0.N :=
  ⟨49 - (y 0).val / 400, lt_of_lt_of_le (by omega : 49 - (y 0).val / 400 < 50) (by decide)⟩

theorem tOf_val (y : S10000x128.Idx) : (tOf y).val = 49 - (y 0).val / 400 := rfl

/-- The index inside that point's block: row `R % 400`, the column unchanged. -/
abbrev inBlk (y : S10000x128.Idx) : S400x128.Idx :=
  ix2 (⟨(y 0).val % 400, Nat.mod_lt _ (by omega)⟩ : Fin 400) (⟨(y 1).val, (y 1).isLt⟩ : Fin 128)

/-! ## Result window 8 -/

theorem flush8_iff : ∀ t : Fin cfg0.N, (cfg0.win 8).flush t = true ↔ 25 ≤ t.val :=
  (by decide +kernel : ∀ t : Fin grid0.N, win0_8.flush t = true ↔ 25 ≤ t.val)

theorem index8 : ∀ t : Fin cfg0.N, 25 ≤ t.val →
    win0_8.index t (0 : Fin 2) = 49 - t.val ∧ win0_8.index t (1 : Fin 2) = 0 :=
  (by decide +kernel : ∀ t : Fin grid0.N, 25 ≤ t.val →
    win0_8.index t (0 : Fin 2) = 49 - t.val ∧ win0_8.index t (1 : Fin 2) = 0)

/-- What point `t` leaves in the window's buffer. -/
def blkMu (t : Fin cfg0.N) : Vec F S400x128 .f32 := k0_pay4 (iblk m c 0 t) (Uall m c) (iblk m c 6 t)

/-- The final array: row `R` is row `R % 400` of the block of the point `49 - R / 400`. -/
def Gmu : S10000x128.Idx → Elt F .f32 := fun y =>
  k0_pay4 (iblk m c 0 (tOf y)) (Uall m c) (iblk m c 6 (tOf y)) (inBlk y)

theorem Gmu_apply (y : S10000x128.Idx) : Gmu m c y = blkMu m c (tOf y) (inBlk y) := rfl

theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v8_0).slice (win0_8.rect t)).set ↔ _
  rw [View.set_slice_whole, Rect.mem_set_unit]
  exact Iff.rfl

theorem flushed8_eq (t : Fin cfg0.N) (hf : (cfg0.win 8).flush t = true) :
    (dats m 0 c).flushed 8 t = ((cfg0.win 8).blk t).view.read (Elt F) (Gmu m c) := by
  have ht : 25 ≤ t.val := (flush8_iff t).1 hf
  have ht' : t.val < 50 := t.isLt
  obtain ⟨e0, e1⟩ := index8 t ht
  show (cfg0.win 8).cut (grid0.coords t) ((dats m 0 c).after 8 t) = _
  rw [after8]
  funext x
  show blkMu m c t x = Gmu m c (((cfg0.win 8).blk t).view.emb x)
  rw [Gmu_apply]
  have hx0 : (x 0).val < 400 := (x 0).isLt
  have hx1 : (x 1).val < 128 := (x 1).isLt
  have r0 : ((((cfg0.win 8).blk t).view.emb x) 0).val = win0_8.index t (0 : Fin 2) * 400 + 1 * (x 0).val := rfl
  have r1 : ((((cfg0.win 8).blk t).view.emb x) 1).val = win0_8.index t (1 : Fin 2) * 128 + 1 * (x 1).val := rfl
  have h1 : tOf (((cfg0.win 8).blk t).view.emb x) = t := Fin.ext (by
    show 49 - ((((cfg0.win 8).blk t).view.emb x) 0).val / 400 = t.val
    rw [r0, e0]; omega)
  have h2 : inBlk (((cfg0.win 8).blk t).view.emb x) = x := by
    funext a; apply Fin.ext
    match a with
    | ⟨0, _⟩ => show ((((cfg0.win 8).blk t).view.emb x) 0).val % 400 = (x 0).val; rw [r0, e0]; omega
    | ⟨1, _⟩ => show ((((cfg0.win 8).blk t).view.emb x) 1).val = (x 1).val; rw [r1, e1]; omega
  rw [h1, h2]

theorem cover8 (y : S10000x128.Idx) :
    ∃ t : Fin cfg0.N, (cfg0.win 8).flush t = true ∧ y ∈ ((cfg0.win 8).blk t).view.set := by
  have hy0 : (y 0).val < 10000 := (y 0).isLt
  have hy1 : (y 1).val < 128 := (y 1).isLt
  have ht : 25 ≤ (tOf y).val := by show 25 ≤ 49 - (y 0).val / 400; omega
  have hv : (tOf y).val = 49 - (y 0).val / 400 := rfl
  obtain ⟨e0, e1⟩ := index8 (tOf y) ht
  refine ⟨tOf y, (flush8_iff (tOf y)).2 ht, ?_⟩
  rw [mem_blk8]
  intro a
  match a with
  | ⟨0, _⟩ =>
    show win0_8.index (tOf y) (0 : Fin 2) * 400 ≤ (y 0).val ∧ (y 0).val < win0_8.index (tOf y) (0 : Fin 2) * 400 + 400
    rw [e0, hv]; omega
  | ⟨1, _⟩ =>
    show win0_8.index (tOf y) (1 : Fin 2) * 128 ≤ (y 1).val ∧ (y 1).val < win0_8.index (tOf y) (1 : Fin 2) * 128 + 128
    rw [e1]; omega

/-- The array after the run. -/
theorem final8 : (dats m 0 c).arrAt 8 cfg0.N = Gmu m c :=
  (dats m 0 c).arrAt_eq_of_cover 8 (Gmu m c) (fun t hf => flushed8_eq m c t hf) (cover8)

/-! ## Result window 9 -/

theorem flush9_iff : ∀ t : Fin cfg0.N, (cfg0.win 9).flush t = true ↔ 25 ≤ t.val :=
  (by decide +kernel : ∀ t : Fin grid0.N, win0_9.flush t = true ↔ 25 ≤ t.val)

theorem index9 : ∀ t : Fin cfg0.N, 25 ≤ t.val →
    win0_9.index t (0 : Fin 2) = 49 - t.val ∧ win0_9.index t (1 : Fin 2) = 0 :=
  (by decide +kernel : ∀ t : Fin grid0.N, 25 ≤ t.val →
    win0_9.index t (0 : Fin 2) = 49 - t.val ∧ win0_9.index t (1 : Fin 2) = 0)

/-- What point `t` leaves in the window's buffer. -/
def blkLs (t : Fin cfg0.N) : Vec F S400x128 .f32 := k0_pay5 (iblk m c 0 t) (Uall m c) (iblk m c 7 t)

/-- The final array: row `R` is row `R % 400` of the block of the point `49 - R / 400`. -/
def Gls : S10000x128.Idx → Elt F .f32 := fun y =>
  k0_pay5 (iblk m c 0 (tOf y)) (Uall m c) (iblk m c 7 (tOf y)) (inBlk y)

theorem Gls_apply (y : S10000x128.Idx) : Gls m c y = blkLs m c (tOf y) (inBlk y) := rfl

theorem mem_blk9 (t : Fin cfg0.N) (i : S10000x128.Idx) :
    i ∈ ((cfg0.win 9).blk t).view.set ↔ ∀ a : Fin 2, win0_9.index t a * S400x128.size a ≤ (i a).val ∧ (i a).val < win0_9.index t a * S400x128.size a + S400x128.size a := by
  show i ∈ ((View.whole main_v8_1).slice (win0_9.rect t)).set ↔ _
  rw [View.set_slice_whole, Rect.mem_set_unit]
  exact Iff.rfl

theorem flushed9_eq (t : Fin cfg0.N) (hf : (cfg0.win 9).flush t = true) :
    (dats m 0 c).flushed 9 t = ((cfg0.win 9).blk t).view.read (Elt F) (Gls m c) := by
  have ht : 25 ≤ t.val := (flush9_iff t).1 hf
  have ht' : t.val < 50 := t.isLt
  obtain ⟨e0, e1⟩ := index9 t ht
  show (cfg0.win 9).cut (grid0.coords t) ((dats m 0 c).after 9 t) = _
  rw [after9]
  funext x
  show blkLs m c t x = Gls m c (((cfg0.win 9).blk t).view.emb x)
  rw [Gls_apply]
  have hx0 : (x 0).val < 400 := (x 0).isLt
  have hx1 : (x 1).val < 128 := (x 1).isLt
  have r0 : ((((cfg0.win 9).blk t).view.emb x) 0).val = win0_9.index t (0 : Fin 2) * 400 + 1 * (x 0).val := rfl
  have r1 : ((((cfg0.win 9).blk t).view.emb x) 1).val = win0_9.index t (1 : Fin 2) * 128 + 1 * (x 1).val := rfl
  have h1 : tOf (((cfg0.win 9).blk t).view.emb x) = t := Fin.ext (by
    show 49 - ((((cfg0.win 9).blk t).view.emb x) 0).val / 400 = t.val
    rw [r0, e0]; omega)
  have h2 : inBlk (((cfg0.win 9).blk t).view.emb x) = x := by
    funext a; apply Fin.ext
    match a with
    | ⟨0, _⟩ => show ((((cfg0.win 9).blk t).view.emb x) 0).val % 400 = (x 0).val; rw [r0, e0]; omega
    | ⟨1, _⟩ => show ((((cfg0.win 9).blk t).view.emb x) 1).val = (x 1).val; rw [r1, e1]; omega
  rw [h1, h2]

theorem cover9 (y : S10000x128.Idx) :
    ∃ t : Fin cfg0.N, (cfg0.win 9).flush t = true ∧ y ∈ ((cfg0.win 9).blk t).view.set := by
  have hy0 : (y 0).val < 10000 := (y 0).isLt
  have hy1 : (y 1).val < 128 := (y 1).isLt
  have ht : 25 ≤ (tOf y).val := by show 25 ≤ 49 - (y 0).val / 400; omega
  have hv : (tOf y).val = 49 - (y 0).val / 400 := rfl
  obtain ⟨e0, e1⟩ := index9 (tOf y) ht
  refine ⟨tOf y, (flush9_iff (tOf y)).2 ht, ?_⟩
  rw [mem_blk9]
  intro a
  match a with
  | ⟨0, _⟩ =>
    show win0_9.index (tOf y) (0 : Fin 2) * 400 ≤ (y 0).val ∧ (y 0).val < win0_9.index (tOf y) (0 : Fin 2) * 400 + 400
    rw [e0, hv]; omega
  | ⟨1, _⟩ =>
    show win0_9.index (tOf y) (1 : Fin 2) * 128 ≤ (y 1).val ∧ (y 1).val < win0_9.index (tOf y) (1 : Fin 2) * 128 + 128
    rw [e1]; omega

/-- The array after the run. -/
theorem final9 : (dats m 0 c).arrAt 9 cfg0.N = Gls m c :=
  (dats m 0 c).arrAt_eq_of_cover 9 (Gls m c) (fun t hf => flushed9_eq m c t hf) (cover9)

/-! ## The arrays from their blocks -/

/-- The array is any function `G` that the blocks of the phase-1 points agree with: if what point `t` leaves at
    `(r, cc)` is `G` at row `400 * (49 - t) + r` and column `cc`, then the array is `G`. -/
theorem Gmu_eq_of (G : S10000x128.Idx → Elt F .f32)
    (hb : ∀ (t : Fin cfg0.N) (ht : 25 ≤ t.val) (r : Fin 400) (cc : Fin 128),
      k0_pay4 (iblk m c 0 t) (Uall m c) (iblk m c 6 t) (ix2 r cc)
        = G (ix2 (⟨400 * (49 - t.val) + r.val, by have := t.isLt; have := r.isLt; have hN : cfg0.N = 50 := N_0; omega⟩ : Fin 10000) cc)) :
    Gmu m c = G := by
  funext y
  have hy0 : (y 0).val < 10000 := (y 0).isLt
  have ht : 25 ≤ (tOf y).val := by rw [tOf_val]; omega
  rw [Gmu_apply]
  refine (hb (tOf y) ht ⟨(y 0).val % 400, Nat.mod_lt _ (by omega)⟩ ⟨(y 1).val, (y 1).isLt⟩).trans (congrArg G ?_)
  funext a; apply Fin.ext
  match a with
  | ⟨0, _⟩ =>
    show 400 * (49 - (tOf y).val) + (y 0).val % 400 = (y 0).val
    rw [tOf_val]; omega
  | ⟨1, _⟩ => rfl

/-- The array is any function `G` that the blocks of the phase-1 points agree with: if what point `t` leaves at
    `(r, cc)` is `G` at row `400 * (49 - t) + r` and column `cc`, then the array is `G`. -/
theorem Gls_eq_of (G : S10000x128.Idx → Elt F .f32)
    (hb : ∀ (t : Fin cfg0.N) (ht : 25 ≤ t.val) (r : Fin 400) (cc : Fin 128),
      k0_pay5 (iblk m c 0 t) (Uall m c) (iblk m c 7 t) (ix2 r cc)
        = G (ix2 (⟨400 * (49 - t.val) + r.val, by have := t.isLt; have := r.isLt; have hN : cfg0.N = 50 := N_0; omega⟩ : Fin 10000) cc)) :
    Gls m c = G := by
  funext y
  have hy0 : (y 0).val < 10000 := (y 0).isLt
  have ht : 25 ≤ (tOf y).val := by rw [tOf_val]; omega
  rw [Gls_apply]
  refine (hb (tOf y) ht ⟨(y 0).val % 400, Nat.mod_lt _ (by omega)⟩ ⟨(y 1).val, (y 1).isLt⟩).trans (congrArg G ?_)
  funext a; apply Fin.ext
  match a with
  | ⟨0, _⟩ =>
    show 400 * (49 - (tOf y).val) + (y 0).val % 400 = (y 0).val
    rw [tOf_val]; omega
  | ⟨1, _⟩ => rfl

end Cert.KernelIdeal.Hand

end
-- ==== Proof.PayIdx.lean ====
/-
  The kernel's arithmetic read at an index, on the extended reals.

  Each pure term of the kernel body is a composition of a few array operations: a format change (the identity on
  extended reals), a matrix product into a zero accumulator (a plain sum over the contracted axis), a reshape that
  adds or drops a leading unit axis (the same element at the matching coordinates), a column slice (a shift of the
  column coordinate), a row broadcast (the bias at the column), and the elementwise gate.  The lemmas below read each
  term at an index written by its coordinates and state the element as a sum or a sum plus a bias, so that the
  kernel's side of the value comparison can be chained to the shared specification coordinate by coordinate.

  The last two lemmas read the host operations in front of the kernel call: two weight matrices laid side by side
  along the columns, and a bias vector viewed as a one-row matrix.
-/
import proofs.«163584_g73933567034016_fold_wed_c4_870_20_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.PayValue

open Idealize.ShloMosaic Idealize.SL.Sem
open Idealize.ShloMosaic.ValueIdx Cert.KernelIdeal Cert.KernelIdeal.Gen
open scoped BigOperators

/-! ## The three matrix products: operand indices at an output index and a contraction coordinate

For a product of a matrix with rows `r` and contracted axis `k` by a matrix with contracted axis `k` and columns `c`,
the left operand is read at `(r, k)` and the right operand at `(k, c)`. -/

theorem dot1_lhs0 (i : S10000x256.Idx) (q : dot_S10000x128_S128x256_S10000x256_1_0_0_1_n_n.contr.Idx) : (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem dot1_lhs1 (i : S10000x256.Idx) (q : dot_S10000x128_S128x256_S10000x256_1_0_0_1_n_n.contr.Idx) : (dot_S10000x128_S128x256_S10000x256_1_0_0_1_n_n.lhsIdx i q 1).val = (q ⟨0, by decide⟩).val :=
  dot_S10000x128_S128x256_S10000x256_1_0_0_1_n_n.lhsIdx_val_of_single rfl i q
theorem dot1_rhs0 (i : S10000x256.Idx) (q : dot_S10000x128_S128x256_S10000x256_1_0_0_1_n_n.contr.Idx) : (dot_S10000x128_S128x256_S10000x256_1_0_0_1_n_n.rhsIdx i q 0).val = (q ⟨0, by decide⟩).val :=
  dot_S10000x128_S128x256_S10000x256_1_0_0_1_n_n.rhsIdx_val_of_single rfl i q
theorem dot1_rhs1 (i : S10000x256.Idx) (q : dot_S10000x128_S128x256_S10000x256_1_0_0_1_n_n.contr.Idx) : (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

theorem dot1_lhsIdx (r : Fin 10000) (c : Fin 256) (k : Fin 128) :
    dot_S10000x128_S128x256_S10000x256_1_0_0_1_n_n.lhsIdx (ix2 r c) ((contrEquiv1 dot_S10000x128_S128x256_S10000x256_1_0_0_1_n_n 128 rfl rfl).symm k) = ix2 r k :=
  funext fun a => Fin.ext (by
    have hk := contrEquiv1_symm_val dot_S10000x128_S128x256_S10000x256_1_0_0_1_n_n 128 rfl rfl k
    match a with
    | ⟨0, _⟩ => exact dot1_lhs0 _ _
    | ⟨1, _⟩ => exact (dot1_lhs1 _ _).trans hk)
theorem dot1_rhsIdx (r : Fin 10000) (c : Fin 256) (k : Fin 128) :
    dot_S10000x128_S128x256_S10000x256_1_0_0_1_n_n.rhsIdx (ix2 r c) ((contrEquiv1 dot_S10000x128_S128x256_S10000x256_1_0_0_1_n_n 128 rfl rfl).symm k) = ix2 k c :=
  funext fun a => Fin.ext (by
    have hk := contrEquiv1_symm_val dot_S10000x128_S128x256_S10000x256_1_0_0_1_n_n 128 rfl rfl k
    match a with
    | ⟨0, _⟩ => exact (dot1_rhs0 _ _).trans hk
    | ⟨1, _⟩ => exact dot1_rhs1 _ _)

theorem dot2_lhs0 (i : S400x256.Idx) (q : dot_S400x10000_S10000x256_S400x256_1_0_0_1_n_n.contr.Idx) : (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem dot2_lhs1 (i : S400x256.Idx) (q : dot_S400x10000_S10000x256_S400x256_1_0_0_1_n_n.contr.Idx) : (dot_S400x10000_S10000x256_S400x256_1_0_0_1_n_n.lhsIdx i q 1).val = (q ⟨0, by decide⟩).val :=
  dot_S400x10000_S10000x256_S400x256_1_0_0_1_n_n.lhsIdx_val_of_single rfl i q
theorem dot2_rhs0 (i : S400x256.Idx) (q : dot_S400x10000_S10000x256_S400x256_1_0_0_1_n_n.contr.Idx) : (dot_S400x10000_S10000x256_S400x256_1_0_0_1_n_n.rhsIdx i q 0).val = (q ⟨0, by decide⟩).val :=
  dot_S400x10000_S10000x256_S400x256_1_0_0_1_n_n.rhsIdx_val_of_single rfl i q
theorem dot2_rhs1 (i : S400x256.Idx) (q : dot_S400x10000_S10000x256_S400x256_1_0_0_1_n_n.contr.Idx) : (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

theorem dot2_lhsIdx (r : Fin 400) (c : Fin 256) (k : Fin 10000) :
    dot_S400x10000_S10000x256_S400x256_1_0_0_1_n_n.lhsIdx (ix2 r c) ((contrEquiv1 dot_S400x10000_S10000x256_S400x256_1_0_0_1_n_n 10000 rfl rfl).symm k) = ix2 r k :=
  funext fun a => Fin.ext (by
    have hk := contrEquiv1_symm_val dot_S400x10000_S10000x256_S400x256_1_0_0_1_n_n 10000 rfl rfl k
    match a with
    | ⟨0, _⟩ => exact dot2_lhs0 _ _
    | ⟨1, _⟩ => exact (dot2_lhs1 _ _).trans hk)
theorem dot2_rhsIdx (r : Fin 400) (c : Fin 256) (k : Fin 10000) :
    dot_S400x10000_S10000x256_S400x256_1_0_0_1_n_n.rhsIdx (ix2 r c) ((contrEquiv1 dot_S400x10000_S10000x256_S400x256_1_0_0_1_n_n 10000 rfl rfl).symm k) = ix2 k c :=
  funext fun a => Fin.ext (by
    have hk := contrEquiv1_symm_val dot_S400x10000_S10000x256_S400x256_1_0_0_1_n_n 10000 rfl rfl k
    match a with
    | ⟨0, _⟩ => exact (dot2_rhs0 _ _).trans hk
    | ⟨1, _⟩ => exact dot2_rhs1 _ _)

theorem dot3_lhs0 (i : S400x256.Idx) (q : dot_S400x128_S128x256_S400x256_1_0_0_1_n_n.contr.Idx) : (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem dot3_lhs1 (i : S400x256.Idx) (q : dot_S400x128_S128x256_S400x256_1_0_0_1_n_n.contr.Idx) : (dot_S400x128_S128x256_S400x256_1_0_0_1_n_n.lhsIdx i q 1).val = (q ⟨0, by decide⟩).val :=
  dot_S400x128_S128x256_S400x256_1_0_0_1_n_n.lhsIdx_val_of_single rfl i q
theorem dot3_rhs0 (i : S400x256.Idx) (q : dot_S400x128_S128x256_S400x256_1_0_0_1_n_n.contr.Idx) : (dot_S400x128_S128x256_S400x256_1_0_0_1_n_n.rhsIdx i q 0).val = (q ⟨0, by decide⟩).val :=
  dot_S400x128_S128x256_S400x256_1_0_0_1_n_n.rhsIdx_val_of_single rfl i q
theorem dot3_rhs1 (i : S400x256.Idx) (q : dot_S400x128_S128x256_S400x256_1_0_0_1_n_n.contr.Idx) : (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

theorem dot3_lhsIdx (r : Fin 400) (c : Fin 256) (k : Fin 128) :
    dot_S400x128_S128x256_S400x256_1_0_0_1_n_n.lhsIdx (ix2 r c) ((contrEquiv1 dot_S400x128_S128x256_S400x256_1_0_0_1_n_n 128 rfl rfl).symm k) = ix2 r k :=
  funext fun a => Fin.ext (by
    have hk := contrEquiv1_symm_val dot_S400x128_S128x256_S400x256_1_0_0_1_n_n 128 rfl rfl k
    match a with
    | ⟨0, _⟩ => exact dot3_lhs0 _ _
    | ⟨1, _⟩ => exact (dot3_lhs1 _ _).trans hk)
theorem dot3_rhsIdx (r : Fin 400) (c : Fin 256) (k : Fin 128) :
    dot_S400x128_S128x256_S400x256_1_0_0_1_n_n.rhsIdx (ix2 r c) ((contrEquiv1 dot_S400x128_S128x256_S400x256_1_0_0_1_n_n 128 rfl rfl).symm k) = ix2 k c :=
  funext fun a => Fin.ext (by
    have hk := contrEquiv1_symm_val dot_S400x128_S128x256_S400x256_1_0_0_1_n_n 128 rfl rfl k
    match a with
    | ⟨0, _⟩ => exact (dot3_rhs0 _ _).trans hk
    | ⟨1, _⟩ => exact dot3_rhs1 _ _)

/-! ## Column slices and the row broadcast of a bias -/

/-- The left half of the columns: element `(r, j)` of the slice is element `(r, j)` of the matrix. -/
theorem slice_lo_apply (M : Vec Ideal S400x256 .f32) (r : Fin 400) (j : Fin 128) :
    extractStridedSlice S400x128 ![0, 0] M slices_S400x256_o0_0_S400x128 (ix2 r j) = M (ix2 r ⟨j.val, by omega⟩) :=
  extractStridedSlice_apply _ M slices_S400x256_o0_0_S400x128 (ix2 r j) (ix2 r ⟨j.val, by omega⟩) (fun a => match a with
    | ⟨0, _⟩ => by show r.val = 0 + r.val; omega
    | ⟨1, _⟩ => by show j.val = 0 + j.val; omega)

/-- The right half of the columns: element `(r, j)` of the slice is element `(r, 128 + j)` of the matrix. -/
theorem slice_hi_apply (M : Vec Ideal S400x256 .f32) (r : Fin 400) (j : Fin 128) :
    extractStridedSlice S400x128 ![0, 128] M slices_S400x256_o0_128_S400x128 (ix2 r j) = M (ix2 r ⟨128 + j.val, by omega⟩) :=
  extractStridedSlice_apply _ M slices_S400x256_o0_128_S400x128 (ix2 r j) (ix2 r ⟨128 + j.val, by omega⟩) (fun a => match a with
    | ⟨0, _⟩ => by show r.val = 0 + r.val; omega
    | ⟨1, _⟩ => by show 128 + j.val = 128 + j.val; rfl)

/-- A one-row bias broadcast over the rows: element `(r, j)` is the bias at column `j`. -/
theorem bias_apply (b : Vec Ideal S1x128 .f32) (r : Fin 400) (j : Fin 128) :
    broadcastTo S400x128 b broadcasts_S1x128_S400x128 (ix2 r j) = b (ix2 (0 : Fin 1) j) :=
  broadcastTo_apply b broadcasts_S1x128_S400x128 (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])

/-! ## The five pure terms of the kernel body -/

/-- The support: element `(0, k, c)` is the sum over `l` of `X k l * W l c`. -/
theorem pay1_apply (X : Vec Ideal S10000x128 .f32) (W : Vec Ideal S128x256 .bf16) (k : Fin 10000) (c : Fin 256) :
    k0_pay1 (F := Ideal) X W (ix3 (0 : Fin 1) k c) = ∑ l : Fin 128, X (ix2 k l) * W (ix2 l c) := by
  unfold k0_pay1
  simp only [matmul]
  rw [shapeCast_ab_1ab_apply, truncf_apply, Ideal.matmul_constant_zero_apply, ← Equiv.sum_comp (contrEquiv1 dot_S10000x128_S128x256_S10000x256_1_0_0_1_n_n 128 rfl rfl).symm]
  refine Finset.sum_congr rfl fun l _ => ?_
  rw [dot1_lhsIdx, dot1_rhsIdx, shapeCast_self]
  rfl

/-- The aggregation over the nodes: element `(r, c)` is the sum over `k` of `A r k * P 0 k c`. -/
theorem pay2_apply (A : Vec Ideal S400x10000 .f32) (P : Vec Ideal S1x10000x256 .bf16) (r : Fin 400) (c : Fin 256) :
    k0_pay2 (F := Ideal) A P (ix2 r c) = ∑ k : Fin 10000, A (ix2 r k) * P (ix3 (0 : Fin 1) k c) := by
  unfold k0_pay2
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  rw [dot2_lhsIdx, dot2_rhsIdx, shapeCast_1ab_ab_apply]
  rfl

/-- The gated hidden rows times the second layer's weights: element `(0, r, c)` is the sum over `j` of
    `tanh (acc r j + b1 j) * logistic (acc r (128 + j) + b2 j)` times `W j c`, `acc` the aggregation above. -/
theorem pay3_apply (A : Vec Ideal S400x10000 .f32) (P : Vec Ideal S1x10000x256 .bf16) (b1 b2 : Vec Ideal S1x128 .f32)
    (W : Vec Ideal S128x256 .bf16) (r : Fin 400) (c : Fin 256) :
    k0_pay3 (F := Ideal) A P b1 b2 W (ix3 (0 : Fin 1) r c)
      = ∑ j : Fin 128, (Ideal.tanh (k0_pay2 (F := Ideal) A P (ix2 r ⟨j.val, by omega⟩) + b1 (ix2 (0 : Fin 1) j))
          * Ideal.logistic (k0_pay2 (F := Ideal) A P (ix2 r ⟨128 + j.val, by omega⟩) + b2 (ix2 (0 : Fin 1) j))) * W (ix2 j c) := by
  unfold k0_pay3
  generalize k0_pay2 (F := Ideal) A P = M
  simp only [matmul]
  rw [shapeCast_ab_1ab_apply, truncf_apply, Ideal.matmul_constant_zero_apply, ← Equiv.sum_comp (contrEquiv1 dot_S400x128_S128x256_S400x256_1_0_0_1_n_n 128 rfl rfl).symm]
  refine Finset.sum_congr rfl fun j _ => ?_
  rw [dot3_lhsIdx, dot3_rhsIdx, shapeCast_self, shapeCast_self, shapeCast_self]
  refine congrArg₂ (· * ·) ?_ rfl
  show Ideal.tanh (extractStridedSlice S400x128 ![0, 0] M slices_S400x256_o0_0_S400x128 (ix2 r j)
        + broadcastTo S400x128 b1 broadcasts_S1x128_S400x128 (ix2 r j))
      * Ideal.logistic (extractStridedSlice S400x128 ![0, 128] M slices_S400x256_o0_128_S400x128 (ix2 r j)
        + broadcastTo S400x128 b2 broadcasts_S1x128_S400x128 (ix2 r j)) = _
  rw [slice_lo_apply, slice_hi_apply, bias_apply, bias_apply]

/-- The first result block: the left half of the aggregation plus its bias. -/
theorem pay4_apply (A : Vec Ideal S400x10000 .f32) (P : Vec Ideal S1x10000x256 .bf16) (b : Vec Ideal S1x128 .f32) (r : Fin 400) (c : Fin 128) :
    k0_pay4 (F := Ideal) A P b (ix2 r c) = k0_pay2 (F := Ideal) A P (ix2 r ⟨c.val, by omega⟩) + b (ix2 (0 : Fin 1) c) := by
  unfold k0_pay4
  generalize k0_pay2 (F := Ideal) A P = M
  rw [addf_apply, shapeCast_self, slice_lo_apply, bias_apply]

/-- The second result block: the right half of the aggregation plus its bias. -/
theorem pay5_apply (A : Vec Ideal S400x10000 .f32) (P : Vec Ideal S1x10000x256 .bf16) (b : Vec Ideal S1x128 .f32) (r : Fin 400) (c : Fin 128) :
    k0_pay5 (F := Ideal) A P b (ix2 r c) = k0_pay2 (F := Ideal) A P (ix2 r ⟨128 + c.val, by omega⟩) + b (ix2 (0 : Fin 1) c) := by
  unfold k0_pay5
  generalize k0_pay2 (F := Ideal) A P = M
  rw [addf_apply, shapeCast_self, slice_hi_apply, bias_apply]

/-! ## The host operations in front of the kernel call -/

/-- Two square weight matrices side by side along the columns, after the format change: column `c` below 128 reads
    the first matrix at column `c`, a later column the second matrix at column `c - 128`. -/
theorem concat_apply (a b : Vec Ideal S128x128 .f32) (l : Fin 128) (c : Fin 256) :
    (truncf (F := Ideal) .bf16 (concatenate S128x256 1 [⟨S128x128, a⟩, ⟨S128x128, b⟩] concatenates_S128x128_S128x128_S128x256_d1) bitsLt_bf16_f32
        : Vec Ideal S128x256 .bf16) (ix2 l c)
      = if h : c.val < 128 then a (ix2 l ⟨c.val, h⟩) else b (ix2 l ⟨c.val - 128, by omega⟩) := by
  rw [truncf_apply]
  by_cases h : c.val < 128
  · rw [dif_pos h]
    exact concatenate_pair_apply_left 1 a b concatenates_S128x128_S128x128_S128x256_d1 (ix2 l c) rfl (ix2 l ⟨c.val, h⟩)
      (fun d => match d with
        | ⟨0, _⟩ => rfl
        | ⟨1, _⟩ => rfl)
  · rw [dif_neg h]
    exact concatenate_pair_apply_right 1 a b concatenates_S128x128_S128x128_S128x256_d1 (ix2 l c) rfl rfl (ix2 l ⟨c.val - 128, by omega⟩)
      (fun d => match d with
        | ⟨0, _⟩ => fun _ => rfl
        | ⟨1, _⟩ => fun hne => absurd rfl hne)
      (by show c.val - 128 + 128 = c.val; omega)

/-- A bias vector viewed as a one-row matrix: element `(0, j)` is the vector's element `j`. -/
theorem reshape_apply (b : Vec Ideal S128 .f32) (j : Fin 128) :
    shapeCast S1x128 b shapeCasts_S128_S1x128 (ix2 (0 : Fin 1) j) = b (ix1 j) :=
  shapeCast_a_1a_apply b shapeCasts_S128_S1x128 0 j

end Cert.KernelIdeal.PayValue

end
-- ==== Proof.EntryArrays.lean ====
/-
  What the kernel's one region finds in the arrays its windows stage, and each input window's block at a grid
  point read at an index.

  Before the region the host joins each pair of weight matrices side by side and narrows the result, and gives
  each bias vector the shape of one row.  The region's windows then stage: a block of 400 rows of the adjacency
  per grid point, and the whole of every other input at every point.
-/
import proofs.«163584_g73933567034016_fold_wed_c4_870_20_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F] (m : (ℓ : Loc nD τ sig) → Buf (Elt F) ℓ) (c : Dev nD)

/-! ## The arrays the host wrote before the region -/

/-- The first pair of weight matrices, side by side and narrowed. -/
theorem V_v1 : (Gen.V m c main_v1 : Vec F S128x256 .bf16)
    = truncf .bf16 (concatenate S128x256 1 [⟨S128x128, m ((c : Thread nD τ).loc main_arg2)⟩, ⟨S128x128, m ((c : Thread nD τ).loc main_arg4)⟩]
        concatenates_S128x128_S128x128_S128x256_d1) bitsLt_bf16_f32 := by
  dsimp only [Gen.V, Gen.hostOps0]; after_results

/-- The second pair of weight matrices, side by side and narrowed. -/
theorem V_v3 : (Gen.V m c main_v3 : Vec F S128x256 .bf16)
    = truncf .bf16 (concatenate S128x256 1 [⟨S128x128, m ((c : Thread nD τ).loc main_arg6)⟩, ⟨S128x128, m ((c : Thread nD τ).loc main_arg8)⟩]
        concatenates_S128x128_S128x128_S128x256_d1) bitsLt_bf16_f32 := by
  dsimp only [Gen.V, Gen.hostOps0]; after_results

/-- The first bias as one row. -/
theorem V_v4 : (Gen.V m c main_v4 : Vec F S1x128 .f32)
    = shapeCast S1x128 (m ((c : Thread nD τ).loc main_arg3)) shapeCasts_S128_S1x128 := by
  dsimp only [Gen.V, Gen.hostOps0]; after_results; rfl

/-- The second bias as one row. -/
theorem V_v5 : (Gen.V m c main_v5 : Vec F S1x128 .f32)
    = shapeCast S1x128 (m ((c : Thread nD τ).loc main_arg5)) shapeCasts_S128_S1x128 := by
  dsimp only [Gen.V, Gen.hostOps0]; after_results; rfl

/-- The third bias as one row. -/
theorem V_v6 : (Gen.V m c main_v6 : Vec F S1x128 .f32)
    = shapeCast S1x128 (m ((c : Thread nD τ).loc main_arg7)) shapeCasts_S128_S1x128 := by
  dsimp only [Gen.V, Gen.hostOps0]; after_results; rfl

/-- The fourth bias as one row. -/
theorem V_v7 : (Gen.V m c main_v7 : Vec F S1x128 .f32)
    = shapeCast S1x128 (m ((c : Thread nD τ).loc main_arg9)) shapeCasts_S128_S1x128 := by
  dsimp only [Gen.V, Gen.hostOps0]; after_results; rfl

/-! ## Which array each window stages -/

theorem arrRef_0 : Pipeline.arrRef spec0 (0 : Fin 10) = main_arg1 := rfl
theorem arrRef_1 : Pipeline.arrRef spec0 (1 : Fin 10) = main_arg0 := rfl
theorem arrRef_2 : Pipeline.arrRef spec0 (2 : Fin 10) = main_v1 := rfl
theorem arrRef_3 : Pipeline.arrRef spec0 (3 : Fin 10) = main_v3 := rfl
theorem arrRef_4 : Pipeline.arrRef spec0 (4 : Fin 10) = main_v4 := rfl
theorem arrRef_5 : Pipeline.arrRef spec0 (5 : Fin 10) = main_v5 := rfl
theorem arrRef_6 : Pipeline.arrRef spec0 (6 : Fin 10) = main_v6 := rfl
theorem arrRef_7 : Pipeline.arrRef spec0 (7 : Fin 10) = main_v7 := rfl
theorem arrRef_8 : Pipeline.arrRef spec0 (8 : Fin 10) = main_v8_0 := rfl
theorem arrRef_9 : Pipeline.arrRef spec0 (9 : Fin 10) = main_v8_1 := rfl

/-! ## The input windows' blocks -/

/-- The adjacency's row block staged at point `t`: the fifty points walk the 25 blocks of 400 rows forward, then
    backward. -/
def rowBlk (t : Fin cfg0.N) : Nat := if t.val < 25 then t.val else 49 - t.val

theorem rowBlk_lt (t : Fin cfg0.N) : rowBlk t < 25 := by
  have ht : t.val < 50 := lt_of_lt_of_eq t.isLt N_0
  unfold rowBlk
  split_ifs <;> omega

/-- The adjacency's row that row `r` of the block staged at point `t` is. -/
def adjRow (t : Fin cfg0.N) (r : Fin 400) : Fin 10000 :=
  ⟨400 * rowBlk t + r.val, by have := rowBlk_lt t; have := r.isLt; omega⟩

/-- The block indices of the input windows, decided over the grid's fifty points: window 0 is at the row block
    above and column block 0; windows 1 to 7 stay at block (0, 0). -/
theorem idx_in : ∀ t : Fin cfg0.N,
    (win0_0.index t (0 : Fin 2) = (if t.val < 25 then t.val else 49 - t.val) ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Window 0's block at point `t`, at row `r` and column `k`, is the adjacency at row `adjRow t r` and column `k`. -/
theorem iblk_0 (t : Fin cfg0.N) (r : Fin 400) (k : Fin 10000) :
    (Gen.iblk m c 0 t : Vec F S400x10000 .f32) (ix2 r k)
      = (Gen.V m c main_arg1 : Vec F S10000x10000 .f32) (ix2 (adjRow t r) k) := by
  obtain ⟨h0, h1⟩ := (idx_in t).1
  unfold Gen.iblk
  rw [View.read_apply]
  show Gen.V m c main_arg1 _ = Gen.V m c main_arg1 _
  congr 1
  funext a
  apply Fin.ext
  match a with
  | ⟨0, _⟩ =>
    show win0_0.index t 0 * 400 + 1 * r.val = 400 * rowBlk t + r.val
    rw [h0]; unfold rowBlk; omega
  | ⟨1, _⟩ => show win0_0.index t 1 * 10000 + 1 * k.val = k.val; rw [h1]; omega

/-- Window 1's block at every point is the whole feature array. -/
theorem iblk_1 (t : Fin cfg0.N) : (Gen.iblk m c 1 t : Vec F S10000x128 .f32) = Gen.V m c main_arg0 := by
  obtain ⟨h0, h1⟩ := (idx_in t).2.1
  funext y
  unfold Gen.iblk
  rw [View.read_apply]
  show Gen.V m c main_arg0 _ = Gen.V m c main_arg0 y
  congr 1
  funext a
  apply Fin.ext
  match a with
  | ⟨0, _⟩ => show win0_1.index t 0 * 10000 + 1 * (y 0).val = (y 0).val; rw [h0]; omega
  | ⟨1, _⟩ => show win0_1.index t 1 * 128 + 1 * (y 1).val = (y 1).val; rw [h1]; omega

/-- Window 2's block at every point is the whole first side-by-side weight array. -/
theorem iblk_2 (t : Fin cfg0.N) : (Gen.iblk m c 2 t : Vec F S128x256 .bf16) = Gen.V m c main_v1 := by
  obtain ⟨h0, h1⟩ := (idx_in t).2.2.1
  funext y
  unfold Gen.iblk
  rw [View.read_apply]
  show Gen.V m c main_v1 _ = Gen.V m c main_v1 y
  congr 1
  funext a
  apply Fin.ext
  match a with
  | ⟨0, _⟩ => show win0_2.index t 0 * 128 + 1 * (y 0).val = (y 0).val; rw [h0]; omega
  | ⟨1, _⟩ => show win0_2.index t 1 * 256 + 1 * (y 1).val = (y 1).val; rw [h1]; omega

/-- Window 3's block at every point is the whole second side-by-side weight array. -/
theorem iblk_3 (t : Fin cfg0.N) : (Gen.iblk m c 3 t : Vec F S128x256 .bf16) = Gen.V m c main_v3 := by
  obtain ⟨h0, h1⟩ := (idx_in t).2.2.2.1
  funext y
  unfold Gen.iblk
  rw [View.read_apply]
  show Gen.V m c main_v3 _ = Gen.V m c main_v3 y
  congr 1
  funext a
  apply Fin.ext
  match a with
  | ⟨0, _⟩ => show win0_3.index t 0 * 128 + 1 * (y 0).val = (y 0).val; rw [h0]; omega
  | ⟨1, _⟩ => show win0_3.index t 1 * 256 + 1 * (y 1).val = (y 1).val; rw [h1]; omega

/-- Window 4's block at every point is the whole first bias row. -/
theorem iblk_4 (t : Fin cfg0.N) : (Gen.iblk m c 4 t : Vec F S1x128 .f32) = Gen.V m c main_v4 := by
  obtain ⟨h0, h1⟩ := (idx_in t).2.2.2.2.1
  funext y
  unfold Gen.iblk
  rw [View.read_apply]
  show Gen.V m c main_v4 _ = Gen.V m c main_v4 y
  congr 1
  funext a
  apply Fin.ext
  match a with
  | ⟨0, _⟩ => show win0_4.index t 0 * 1 + 1 * (y 0).val = (y 0).val; rw [h0]; omega
  | ⟨1, _⟩ => show win0_4.index t 1 * 128 + 1 * (y 1).val = (y 1).val; rw [h1]; omega

/-- Window 5's block at every point is the whole second bias row. -/
theorem iblk_5 (t : Fin cfg0.N) : (Gen.iblk m c 5 t : Vec F S1x128 .f32) = Gen.V m c main_v5 := by
  obtain ⟨h0, h1⟩ := (idx_in t).2.2.2.2.2.1
  funext y
  unfold Gen.iblk
  rw [View.read_apply]
  show Gen.V m c main_v5 _ = Gen.V m c main_v5 y
  congr 1
  funext a
  apply Fin.ext
  match a with
  | ⟨0, _⟩ => show win0_5.index t 0 * 1 + 1 * (y 0).val = (y 0).val; rw [h0]; omega
  | ⟨1, _⟩ => show win0_5.index t 1 * 128 + 1 * (y 1).val = (y 1).val; rw [h1]; omega

/-- Window 6's block at every point is the whole third bias row. -/
theorem iblk_6 (t : Fin cfg0.N) : (Gen.iblk m c 6 t : Vec F S1x128 .f32) = Gen.V m c main_v6 := by
  obtain ⟨h0, h1⟩ := (idx_in t).2.2.2.2.2.2.1
  funext y
  unfold Gen.iblk
  rw [View.read_apply]
  show Gen.V m c main_v6 _ = Gen.V m c main_v6 y
  congr 1
  funext a
  apply Fin.ext
  match a with
  | ⟨0, _⟩ => show win0_6.index t 0 * 1 + 1 * (y 0).val = (y 0).val; rw [h0]; omega
  | ⟨1, _⟩ => show win0_6.index t 1 * 128 + 1 * (y 1).val = (y 1).val; rw [h1]; omega

/-- Window 7's block at every point is the whole fourth bias row. -/
theorem iblk_7 (t : Fin cfg0.N) : (Gen.iblk m c 7 t : Vec F S1x128 .f32) = Gen.V m c main_v7 := by
  obtain ⟨h0, h1⟩ := (idx_in t).2.2.2.2.2.2.2
  funext y
  unfold Gen.iblk
  rw [View.read_apply]
  show Gen.V m c main_v7 _ = Gen.V m c main_v7 y
  congr 1
  funext a
  apply Fin.ext
  match a with
  | ⟨0, _⟩ => show win0_7.index t 0 * 1 + 1 * (y 0).val = (y 0).val; rw [h0]; omega
  | ⟨1, _⟩ => show win0_7.index t 1 * 128 + 1 * (y 1).val = (y 1).val; rw [h1]; omega

end Cert.KernelIdeal.Entry

end
-- ==== Proof.Spec.lean ====
/-
  The function both programs compute, on the extended reals, index by index.

  A graph convolution of features `h` (one row per node) with weights `W` and bias `b` over a dense
  adjacency matrix `adj` is `adj · (h · W) + b`: the support `h · W` is formed first, then every node sums its
  neighbours' supports, then the bias is added.  The block applies two layers.  The hidden layer is gated: the
  hyperbolic tangent of one convolution of the input times the logistic function of a second one.  The two
  results are two further convolutions of the hidden layer, with their own weights and biases.

  Everything is stated over functions of plain coordinates (`Fin 10000`, `Fin 128`), so that the kernel's
  side and the reference's side can each be read at an index and compared with this term.  No finiteness is
  assumed anywhere: sums and products are the extended reals' own.
-/
import Idealize.ShloMosaic.PureOps.Ideal
import Idealize.ShloMosaic.Lib.ValueIdx

noncomputable section

open scoped BigOperators

namespace Cert.GcnSpec

open Idealize.ShloMosaic

/-- The support `h · W`: entry `(k, j)` is the sum over `l` of `h k l * W l j`. -/
def support (h : Fin 10000 → Fin 128 → EReal) (W : Fin 128 → Fin 128 → EReal) (k : Fin 10000) (j : Fin 128) : EReal :=
  ∑ l : Fin 128, h k l * W l j

/-- One graph convolution `adj · (h · W) + b`: entry `(r, j)` is the sum over the nodes `k` of
    `adj r k * support h W k j`, plus `b j`. -/
def gconv (adj : Fin 10000 → Fin 10000 → EReal) (h : Fin 10000 → Fin 128 → EReal) (W : Fin 128 → Fin 128 → EReal)
    (b : Fin 128 → EReal) (r : Fin 10000) (j : Fin 128) : EReal :=
  (∑ k : Fin 10000, adj r k * support h W k j) + b j

/-- The gated hidden layer: `tanh` of one convolution of `x` times the logistic function of another. -/
def hidden (adj : Fin 10000 → Fin 10000 → EReal) (x : Fin 10000 → Fin 128 → EReal)
    (W1 : Fin 128 → Fin 128 → EReal) (b1 : Fin 128 → EReal) (W2 : Fin 128 → Fin 128 → EReal) (b2 : Fin 128 → EReal)
    (r : Fin 10000) (j : Fin 128) : EReal :=
  Ideal.tanh (gconv adj x W1 b1 r j) * Ideal.logistic (gconv adj x W2 b2 r j)

/-- A result of the block: a convolution, with weights `W` and bias `b`, of the hidden layer. -/
def out (adj : Fin 10000 → Fin 10000 → EReal) (x : Fin 10000 → Fin 128 → EReal)
    (W1 : Fin 128 → Fin 128 → EReal) (b1 : Fin 128 → EReal) (W2 : Fin 128 → Fin 128 → EReal) (b2 : Fin 128 → EReal)
    (W : Fin 128 → Fin 128 → EReal) (b : Fin 128 → EReal) (r : Fin 10000) (c : Fin 128) : EReal :=
  gconv adj (hidden adj x W1 b1 W2 b2) W b r c

open Idealize.ShloMosaic.ValueIdx in
/-- The same result as an array over the rank-2 index set, from the ten argument arrays read at coordinates:
    features `x`, adjacency `adj`, the hidden layer's two weight matrices and biases, and the result's own. -/
def outArr (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => out (fun r k => adj (ix2 r k)) (fun k l => x (ix2 k l)) (fun l j => W1 (ix2 l j)) (fun j => b1 (ix1 j))
    (fun l j => W2 (ix2 l j)) (fun j => b2 (ix1 j)) (fun l j => W (ix2 l j)) (fun j => b (ix1 j)) (i 0) (i 1)

end Cert.GcnSpec

end
-- ==== Proof.KernelFormula.lean ====
/-
  The kernel's arithmetic, over plain coordinates, and its agreement with the specification.

  The kernel places each pair of weight matrices side by side in one matrix of 256 columns and forms, in one
  pass, the products for both: columns 0 to 127 belong to the first matrix of the pair and columns 128 to 255 to
  the second.  Reading the wide products back at the low and at the high half of the columns gives the
  specification's two convolutions; the gated hidden layer and the two results follow.
-/
import proofs.«163584_g73933567034016_fold_wed_c4_870_20_alg».proof.Proof.Spec

noncomputable section

open scoped BigOperators

namespace Cert.GcnSpec

open Idealize.ShloMosaic

/-- Two matrices of 128 columns side by side: the first in columns 0 to 127, the second in columns 128 to 255. -/
def wcat (Wa Wb : Fin 128 → Fin 128 → EReal) : Fin 128 → Fin 256 → EReal :=
  fun l c => if h : c.val < 128 then Wa l ⟨c.val, h⟩ else Wb l ⟨c.val - 128, by omega⟩

/-- Column `j` of the low half of 256 columns. -/
def lo (j : Fin 128) : Fin 256 := ⟨j.val, by omega⟩

/-- Column `j` of the high half of 256 columns. -/
def hi (j : Fin 128) : Fin 256 := ⟨128 + j.val, by omega⟩

/-- The wide support: features times the side-by-side weights. -/
def ksup (x : Fin 10000 → Fin 128 → EReal) (Wc : Fin 128 → Fin 256 → EReal) (k : Fin 10000) (c : Fin 256) : EReal :=
  ∑ l : Fin 128, x k l * Wc l c

/-- The wide aggregation: every node sums its neighbours' rows of `P`. -/
def kacc (adj : Fin 10000 → Fin 10000 → EReal) (P : Fin 10000 → Fin 256 → EReal) (r : Fin 10000) (c : Fin 256) : EReal :=
  ∑ k : Fin 10000, adj r k * P k c

/-- The gate: the hyperbolic tangent of the low half plus its bias times the logistic function of the high half
    plus its bias. -/
def kgate (adj : Fin 10000 → Fin 10000 → EReal) (x : Fin 10000 → Fin 128 → EReal) (Wc1 : Fin 128 → Fin 256 → EReal)
    (b1 b2 : Fin 128 → EReal) (r : Fin 10000) (j : Fin 128) : EReal :=
  Ideal.tanh (kacc adj (ksup x Wc1) r (lo j) + b1 j) * Ideal.logistic (kacc adj (ksup x Wc1) r (hi j) + b2 j)

/-- The second layer's wide support: the gated hidden layer times the second pair of side-by-side weights. -/
def kstack (adj : Fin 10000 → Fin 10000 → EReal) (x : Fin 10000 → Fin 128 → EReal) (Wc1 : Fin 128 → Fin 256 → EReal)
    (b1 b2 : Fin 128 → EReal) (Wc2 : Fin 128 → Fin 256 → EReal) (k : Fin 10000) (c : Fin 256) : EReal :=
  ∑ j : Fin 128, kgate adj x Wc1 b1 b2 k j * Wc2 j c

variable (adj : Fin 10000 → Fin 10000 → EReal) (x : Fin 10000 → Fin 128 → EReal)
  (W1 W2 Wmu Wls Wa Wb : Fin 128 → Fin 128 → EReal) (b1 b2 bmu bls : Fin 128 → EReal)

/-- At a low column the side-by-side matrix is the first matrix. -/
theorem wcat_lo (l j : Fin 128) : wcat Wa Wb l (lo j) = Wa l j := by
  show (if h : j.val < 128 then Wa l ⟨j.val, h⟩ else Wb l ⟨j.val - 128, _⟩) = Wa l j
  rw [dif_pos j.isLt]

/-- At a high column the side-by-side matrix is the second matrix. -/
theorem wcat_hi (l j : Fin 128) : wcat Wa Wb l (hi j) = Wb l j := by
  show (if h : 128 + j.val < 128 then Wa l ⟨128 + j.val, h⟩ else Wb l ⟨128 + j.val - 128, _⟩) = Wb l j
  rw [dif_neg (by omega)]
  congr 1
  exact Fin.ext (by show 128 + j.val - 128 = j.val; omega)

/-- The wide support at a low column is the support with the first matrix. -/
theorem ksup_lo (h : Fin 10000 → Fin 128 → EReal) (k : Fin 10000) (j : Fin 128) :
    ksup h (wcat Wa Wb) k (lo j) = support h Wa k j := by
  unfold ksup support
  exact Finset.sum_congr rfl fun l _ => by rw [wcat_lo]

/-- The wide support at a high column is the support with the second matrix. -/
theorem ksup_hi (h : Fin 10000 → Fin 128 → EReal) (k : Fin 10000) (j : Fin 128) :
    ksup h (wcat Wa Wb) k (hi j) = support h Wb k j := by
  unfold ksup support
  exact Finset.sum_congr rfl fun l _ => by rw [wcat_hi]

/-- The wide aggregation of the wide support, at a low column, plus a bias is the convolution with the first matrix. -/
theorem kacc_lo (h : Fin 10000 → Fin 128 → EReal) (b : Fin 128 → EReal) (r : Fin 10000) (j : Fin 128) :
    kacc adj (ksup h (wcat Wa Wb)) r (lo j) + b j = gconv adj h Wa b r j := by
  unfold kacc gconv
  congr 1
  exact Finset.sum_congr rfl fun k _ => by rw [ksup_lo]

/-- The wide aggregation of the wide support, at a high column, plus a bias is the convolution with the second matrix. -/
theorem kacc_hi (h : Fin 10000 → Fin 128 → EReal) (b : Fin 128 → EReal) (r : Fin 10000) (j : Fin 128) :
    kacc adj (ksup h (wcat Wa Wb)) r (hi j) + b j = gconv adj h Wb b r j := by
  unfold kacc gconv
  congr 1
  exact Finset.sum_congr rfl fun k _ => by rw [ksup_hi]

/-- The gate over the first pair of weights is the specification's hidden layer. -/
theorem kgate_eq : kgate adj x (wcat W1 W2) b1 b2 = hidden adj x W1 b1 W2 b2 := by
  funext r j
  unfold kgate hidden
  rw [kacc_lo, kacc_hi]

/-- The second layer's wide support is the wide support of the hidden layer. -/
theorem kstack_eq : kstack adj x (wcat W1 W2) b1 b2 (wcat Wmu Wls) = ksup (hidden adj x W1 b1 W2 b2) (wcat Wmu Wls) := by
  funext k c
  unfold kstack ksup
  rw [kgate_eq]

/-- The low half of the second layer, plus its bias, is the specification's first result. -/
theorem kmu_eq :
    (fun r c => kacc adj (kstack adj x (wcat W1 W2) b1 b2 (wcat Wmu Wls)) r (lo c) + bmu c)
      = out adj x W1 b1 W2 b2 Wmu bmu := by
  funext r c
  rw [kstack_eq, kacc_lo]
  rfl

/-- The high half of the second layer, plus its bias, is the specification's second result. -/
theorem kls_eq :
    (fun r c => kacc adj (kstack adj x (wcat W1 W2) b1 b2 (wcat Wmu Wls)) r (hi c) + bls c)
      = out adj x W1 b1 W2 b2 Wls bls := by
  funext r c
  rw [kstack_eq, kacc_hi]
  rfl

end Cert.GcnSpec

end
-- ==== Proof.Bridge.lean ====
/-
  The value bridge: what the kernel's phase-1 points compute, element by element, is the specification's two
  results of the argument arrays.

  A phase-1 point multiplies its 400 rows of the adjacency by the stacked second-layer support and adds a bias.
  Row `k` of that stack is row `k % 400` of the block a phase-0 point stored, and that block's rows are the
  gated hidden rows of 400 consecutive nodes times the second pair of weights side by side; the gate reads the
  first-layer support, features times the first pair of weights side by side, through the same rows of the
  adjacency.  Each window's block is the array the region found, and those arrays are the arguments, the
  weight pairs joined and the biases as rows.  Reading everything at coordinates gives the kernel's formula
  over plain functions, which is the specification's.
-/
import proofs.«163584_g73933567034016_fold_wed_c4_870_20_alg».proof.Proof.Data
import proofs.«163584_g73933567034016_fold_wed_c4_870_20_alg».proof.Proof.PayIdx
import proofs.«163584_g73933567034016_fold_wed_c4_870_20_alg».proof.Proof.EntryArrays
import proofs.«163584_g73933567034016_fold_wed_c4_870_20_alg».proof.Proof.KernelFormula

set_option maxRecDepth 16384

noncomputable section

open scoped BigOperators

namespace Cert.KernelIdeal.Hand

open Cert.KernelIdeal Cert.KernelIdeal.Gen Cert.KernelIdeal.Entry Cert.KernelIdeal.PayValue Cert.GcnSpec
open Idealize.ShloMosaic Idealize.ShloMosaic.TcCoe Idealize.SL.Sem Idealize.ShloMosaic.ValueIdx

variable (m : (ℓ : Loc nD τ sig) → Buf (Elt Ideal) ℓ) (c : Dev nD)

/-! ## The arguments read at coordinates -/

/-- The adjacency as a function of row and column. -/
def adjF : Fin 10000 → Fin 10000 → EReal := fun r k => ((m ((c.tc : Thread nD τ).loc main_arg1)) : Vec Ideal S10000x10000 .f32) (ix2 r k)
/-- The features as a function of node and column. -/
def xF : Fin 10000 → Fin 128 → EReal := fun k l => ((m ((c.tc : Thread nD τ).loc main_arg0)) : Vec Ideal S10000x128 .f32) (ix2 k l)
/-- The four weight matrices as functions of row and column. -/
def W1F : Fin 128 → Fin 128 → EReal := fun l j => ((m ((c.tc : Thread nD τ).loc main_arg2)) : Vec Ideal S128x128 .f32) (ix2 l j)
def W2F : Fin 128 → Fin 128 → EReal := fun l j => ((m ((c.tc : Thread nD τ).loc main_arg4)) : Vec Ideal S128x128 .f32) (ix2 l j)
def WmuF : Fin 128 → Fin 128 → EReal := fun l j => ((m ((c.tc : Thread nD τ).loc main_arg6)) : Vec Ideal S128x128 .f32) (ix2 l j)
def WlsF : Fin 128 → Fin 128 → EReal := fun l j => ((m ((c.tc : Thread nD τ).loc main_arg8)) : Vec Ideal S128x128 .f32) (ix2 l j)
/-- The four bias vectors as functions of the column. -/
def b1F : Fin 128 → EReal := fun j => ((m ((c.tc : Thread nD τ).loc main_arg3)) : Vec Ideal S128 .f32) (ix1 j)
def b2F : Fin 128 → EReal := fun j => ((m ((c.tc : Thread nD τ).loc main_arg5)) : Vec Ideal S128 .f32) (ix1 j)
def bmuF : Fin 128 → EReal := fun j => ((m ((c.tc : Thread nD τ).loc main_arg7)) : Vec Ideal S128 .f32) (ix1 j)
def blsF : Fin 128 → EReal := fun j => ((m ((c.tc : Thread nD τ).loc main_arg9)) : Vec Ideal S128 .f32) (ix1 j)

/-! ## The windows' blocks as the arguments -/

theorem blk0_apply (t : Fin cfg0.N) (r : Fin 400) (k : Fin 10000) :
    (iblk m c 0 t : Vec Ideal S400x10000 .f32) (ix2 r k) = adjF m c (adjRow t r) k :=
  (iblk_0 m c t r k).trans (congrFun (Gen.V_main_arg1 m c) _)

theorem blk1_apply (t : Fin cfg0.N) (k : Fin 10000) (l : Fin 128) :
    (iblk m c 1 t : Vec Ideal S10000x128 .f32) (ix2 k l) = xF m c k l :=
  congrFun ((iblk_1 m c t).trans (Gen.V_main_arg0 m c)) _

theorem blk2_apply (t : Fin cfg0.N) (l : Fin 128) (j : Fin 256) :
    (iblk m c 2 t : Vec Ideal S128x256 .bf16) (ix2 l j) = wcat (W1F m c) (W2F m c) l j :=
  (congrFun ((iblk_2 m c t).trans (V_v1 m c)) _).trans (concat_apply _ _ l j)

theorem blk3_apply (t : Fin cfg0.N) (l : Fin 128) (j : Fin 256) :
    (iblk m c 3 t : Vec Ideal S128x256 .bf16) (ix2 l j) = wcat (WmuF m c) (WlsF m c) l j :=
  (congrFun ((iblk_3 m c t).trans (V_v3 m c)) _).trans (concat_apply _ _ l j)

theorem blk4_apply (t : Fin cfg0.N) (j : Fin 128) :
    (iblk m c 4 t : Vec Ideal S1x128 .f32) (ix2 (0 : Fin 1) j) = b1F m c j :=
  (congrFun ((iblk_4 m c t).trans (V_v4 m c)) _).trans (reshape_apply _ j)

theorem blk5_apply (t : Fin cfg0.N) (j : Fin 128) :
    (iblk m c 5 t : Vec Ideal S1x128 .f32) (ix2 (0 : Fin 1) j) = b2F m c j :=
  (congrFun ((iblk_5 m c t).trans (V_v5 m c)) _).trans (reshape_apply _ j)

theorem blk6_apply (t : Fin cfg0.N) (j : Fin 128) :
    (iblk m c 6 t : Vec Ideal S1x128 .f32) (ix2 (0 : Fin 1) j) = bmuF m c j :=
  (congrFun ((iblk_6 m c t).trans (V_v6 m c)) _).trans (reshape_apply _ j)

theorem blk7_apply (t : Fin cfg0.N) (j : Fin 128) :
    (iblk m c 7 t : Vec Ideal S1x128 .f32) (ix2 (0 : Fin 1) j) = blsF m c j :=
  (congrFun ((iblk_7 m c t).trans (V_v7 m c)) _).trans (reshape_apply _ j)

/-! ## The carried planes at coordinates -/

/-- The first-layer support the first point computes is the wide support of the features. -/
theorem P0_apply (k : Fin 10000) (j : Fin 256) :
    P0 m c (ix3 (0 : Fin 1) k j) = ksup (xF m c) (wcat (W1F m c) (W2F m c)) k j := by
  unfold P0
  refine (pay1_apply _ _ k j).trans ?_
  unfold ksup
  refine Finset.sum_congr rfl fun l _ => ?_
  rw [blk1_apply, blk2_apply]

/-- A point's aggregation of the first-layer support: the wide aggregation at the adjacency rows it stages. -/
theorem acc_apply (t : Fin cfg0.N) (r : Fin 400) (j : Fin 256) :
    k0_pay2 (F := Ideal) (iblk m c 0 t) (P0 m c) (ix2 r j)
      = kacc (adjF m c) (ksup (xF m c) (wcat (W1F m c) (W2F m c))) (adjRow t r) j := by
  refine (pay2_apply _ _ r j).trans ?_
  unfold kacc
  refine Finset.sum_congr rfl fun k _ => ?_
  rw [blk0_apply, P0_apply]

/-- The block a point stores: the second layer's wide support at the adjacency rows it stages. -/
theorem stored_apply (t : Fin cfg0.N) (r : Fin 400) (j : Fin 256) :
    k0_pay3 (F := Ideal) (iblk m c 0 t) (P0 m c) (iblk m c 4 t) (iblk m c 5 t) (iblk m c 3 t) (ix3 (0 : Fin 1) r j)
      = kstack (adjF m c) (xF m c) (wcat (W1F m c) (W2F m c)) (b1F m c) (b2F m c) (wcat (WmuF m c) (WlsF m c)) (adjRow t r) j := by
  refine (pay3_apply _ _ _ _ _ r j).trans ?_
  unfold kstack kgate
  refine Finset.sum_congr rfl fun i _ => ?_
  rw [acc_apply, acc_apply, blk4_apply, blk5_apply, blk3_apply]
  rfl

/-- Phase-0 point `n` stages adjacency rows `400 n` to `400 n + 399`. -/
theorem adjRow_pt (n : Fin 25) (r : Fin 400) :
    adjRow (pt n) r = ⟨400 * n.val + r.val, by have := n.isLt; have := r.isLt; omega⟩ := by
  apply Fin.ext
  show 400 * rowBlk (pt n) + r.val = 400 * n.val + r.val
  unfold rowBlk
  rw [if_pos (show (pt n).val < 25 from n.isLt)]

/-- Block `n` of the stack at coordinates. -/
theorem ublk_apply (n : Fin 25) (r : Fin 400) (j : Fin 256) :
    ublk m c n (ix3 (0 : Fin 1) r j)
      = kstack (adjF m c) (xF m c) (wcat (W1F m c) (W2F m c)) (b1F m c) (b2F m c) (wcat (WmuF m c) (WlsF m c))
          ⟨400 * n.val + r.val, by have := n.isLt; have := r.isLt; omega⟩ j := by
  unfold ublk
  rw [stored_apply, adjRow_pt]

/-- The stack of the twenty-five blocks is the second layer's wide support at every node. -/
theorem Uall_apply (k : Fin 10000) (j : Fin 256) :
    Uall m c (ix3 (0 : Fin 1) k j)
      = kstack (adjF m c) (xF m c) (wcat (W1F m c) (W2F m c)) (b1F m c) (b2F m c) (wcat (WmuF m c) (WlsF m c)) k j := by
  have hk : k.val < 10000 := k.isLt
  have e : Uall m c (ix3 (0 : Fin 1) k j)
      = ublk m c ⟨k.val / 400, by omega⟩ (ix3 (0 : Fin 1) (⟨k.val % 400, by omega⟩ : Fin 400) j) := by
    unfold Uall
    congr 1
    funext a
    match a with
    | ⟨0, _⟩ => rfl
    | ⟨1, _⟩ => rfl
    | ⟨2, _⟩ => rfl
  rw [e, ublk_apply]
  congr 1
  apply Fin.ext
  show 400 * (k.val / 400) + k.val % 400 = k.val
  exact Nat.div_add_mod k.val 400

/-! ## The two results -/

/-- A phase-1 point's first result block, at the adjacency rows it stages, is the specification's first result. -/
theorem bridge_mu_row (t : Fin cfg0.N) (r : Fin 400) (cc : Fin 128) :
    k0_pay4 (F := Ideal) (iblk m c 0 t) (Uall m c) (iblk m c 6 t) (ix2 r cc)
      = out (adjF m c) (xF m c) (W1F m c) (b1F m c) (W2F m c) (b2F m c) (WmuF m c) (bmuF m c) (adjRow t r) cc := by
  refine (pay4_apply _ _ _ r cc).trans ?_
  refine Eq.trans ?_ (congrFun (congrFun (kmu_eq (adjF m c) (xF m c) (W1F m c) (W2F m c) (WmuF m c) (WlsF m c) (b1F m c) (b2F m c) (bmuF m c)) (adjRow t r)) cc)
  show _ = kacc _ _ (adjRow t r) (lo cc) + bmuF m c cc
  rw [blk6_apply]
  congr 1
  refine (pay2_apply _ _ r _).trans ?_
  unfold kacc
  refine Finset.sum_congr rfl fun k _ => ?_
  rw [blk0_apply, Uall_apply]
  rfl

/-- A phase-1 point's second result block, at the adjacency rows it stages, is the specification's second result. -/
theorem bridge_ls_row (t : Fin cfg0.N) (r : Fin 400) (cc : Fin 128) :
    k0_pay5 (F := Ideal) (iblk m c 0 t) (Uall m c) (iblk m c 7 t) (ix2 r cc)
      = out (adjF m c) (xF m c) (W1F m c) (b1F m c) (W2F m c) (b2F m c) (WlsF m c) (blsF m c) (adjRow t r) cc := by
  refine (pay5_apply _ _ _ r cc).trans ?_
  refine Eq.trans ?_ (congrFun (congrFun (kls_eq (adjF m c) (xF m c) (W1F m c) (W2F m c) (WmuF m c) (WlsF m c) (b1F m c) (b2F m c) (blsF m c)) (adjRow t r)) cc)
  show _ = kacc _ _ (adjRow t r) (hi cc) + blsF m c cc
  rw [blk7_apply]
  congr 1
  refine (pay2_apply _ _ r _).trans ?_
  unfold kacc
  refine Finset.sum_congr rfl fun k _ => ?_
  rw [blk0_apply, Uall_apply]
  rfl

/-- In phase 1 the points walk the adjacency's row blocks backward: point `t` stages block `49 - t`. -/
theorem adjRow_phase1 (t : Fin cfg0.N) (ht : 25 ≤ t.val) (r : Fin 400) :
    adjRow t r = ⟨400 * (49 - t.val) + r.val, by have := r.isLt; omega⟩ := by
  apply Fin.ext
  show 400 * rowBlk t + r.val = 400 * (49 - t.val) + r.val
  unfold rowBlk
  rw [if_neg (by omega)]

/-- THE BRIDGE, first result: phase-1 point `t`'s block at row `r` and column `cc` is the specification's first
    result of the argument arrays at row `400 (49 - t) + r`. -/
theorem bridge_mu (t : Fin cfg0.N) (ht : 25 ≤ t.val) (r : Fin 400) (cc : Fin 128) :
    k0_pay4 (F := Ideal) (iblk m c 0 t) (Uall m c) (iblk m c 6 t) (ix2 r cc)
      = outArr (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (ix2 (⟨400 * (49 - t.val) + r.val, by have := r.isLt; omega⟩ : Fin 10000) cc) := by
  rw [bridge_mu_row, adjRow_phase1 t ht]
  rfl

/-- THE BRIDGE, second result. -/
theorem bridge_ls (t : Fin cfg0.N) (ht : 25 ≤ t.val) (r : Fin 400) (cc : Fin 128) :
    k0_pay5 (F := Ideal) (iblk m c 0 t) (Uall m c) (iblk m c 7 t) (ix2 r cc)
      = outArr (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8)) (m ((c.tc : Thread nD τ).loc main_arg9))
          (ix2 (⟨400 * (49 - t.val) + r.val, by have := r.isLt; omega⟩ : Fin 10000) cc) := by
  rw [bridge_ls_row, adjRow_phase1 t ht]
  rfl

end Cert.KernelIdeal.Hand

end
-- ==== Proof.KernelValue.lean ====
/-
  The idealized kernel's run with its two results named: on the extended reals the two result arrays end
  at the specification's two results of the ten argument arrays, and the arguments end unchanged.  The run
  is the frame run; each result array after it is the whole-array function the phase-1 blocks tile; and that
  function, read index by index through the body's arithmetic, the carried buffer's two planes and the
  windows' blocks, is the specification.
-/
import proofs.«163584_g73933567034016_fold_wed_c4_870_20_alg».proof.Proof.Body
import proofs.«163584_g73933567034016_fold_wed_c4_870_20_alg».proof.Proof.FinalArrays
import proofs.«163584_g73933567034016_fold_wed_c4_870_20_alg».proof.Proof.Bridge
import proofs.«163584_g73933567034016_fold_wed_c4_870_20_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.BoxUpdate

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The first result array after the run is the specification's first result: every row block was written by a
    phase-1 point, and that point's block is the specification read at the block's rows. -/
theorem Gmu_spec (c : Dev nD) : Gmu (F := Ideal) m c = Cert.GcnSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Gmu_eq_of m c _ (bridge_mu m c)

/-- The second result array likewise, with the second result's weights and bias. -/
theorem Gls_spec (c : Dev nD) : Gls (F := Ideal) m c = Cert.GcnSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
  Gls_eq_of m c _ (bridge_ls m c)

/-- The run with its results named. -/
theorem run_value : θ_run defs (onTc (τ := τ) (main (F := Ideal))) ⟨m, fun _ => 0, ρ⟩ (fun r => ∀ c : Dev nD,
      r.2.mem ((c.tc : Thread nD τ).loc main_v8_0) = Cert.GcnSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v8_1) = Cert.GcnSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 8).trans ((final8 m c).trans (Gmu_spec m c)),
      ((h c).1 9).trans ((final9 m c).trans (Gls_spec m c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main (F := Ideal) m ρ)

end Cert.KernelIdeal.Hand

end
-- ==== Proof.RefSpec.lean ====
/-
  The reference program's two results, read index by index, are the specification's two results of its
  argument arrays.
-/
import proofs.«163584_g73933567034016_fold_wed_c4_870_20_alg».proof.Defs
import proofs.«163584_g73933567034016_fold_wed_c4_870_20_alg».proof.Proof.Gen.ReferenceIdeal.Run
import proofs.«163584_g73933567034016_fold_wed_c4_870_20_alg».proof.Proof.Gen.ReferenceIdeal.Read
import proofs.«163584_g73933567034016_fold_wed_c4_870_20_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.GcnSpec
open Idealize.ShloMosaic Idealize.ShloMosaic.TcCoe Idealize.SL.Sem Idealize.ShloMosaic.StableHlo Idealize.ShloMosaic.ValueIdx

/-- The features' shape of array: one row per node, 128 columns. -/
abbrev ArrH : Type := (⟨S10000x128, .f32⟩ : BufTy).Contents (Elt Ideal)
/-- The adjacency's shape of array. -/
abbrev ArrA : Type := (⟨S10000x10000, .f32⟩ : BufTy).Contents (Elt Ideal)
/-- A weight matrix's shape of array. -/
abbrev ArrW : Type := (⟨S128x128, .f32⟩ : BufTy).Contents (Elt Ideal)
/-- A bias vector's shape of array. -/
abbrev ArrB : Type := (⟨S128, .f32⟩ : BufTy).Contents (Elt Ideal)

/-- The bit pattern of the single-precision one denotes the real number one. -/
theorem ofBits_one : Ideal.ofBits .f32 0x3F800000#32 = 1 := by
  simp [Ideal.ofBits, Ideal.ieee, -EReal.coe_mul]; norm_num

/-- The first product of a convolution, at coordinates, is the specification's support. -/
theorem support_v0 (h : ArrH) (W : ArrW) (k : Fin 10000) (j : Fin 128) :
    val_main_v0 (F := Ideal) h W (ix2 k j) = support (fun k l => h (ix2 k l)) (fun l j => W (ix2 l j)) k j := by
  rw [val_main_v0_apply]
  unfold support
  refine Finset.sum_congr rfl fun l _ => ?_
  have e1 : lidx_main_v0 (ix2 k j) l = ix2 k l := by
    funext a; match a with | ⟨0, _⟩ => rfl | ⟨1, _⟩ => rfl
  have e2 : ridx_main_v0 (ix2 k j) l = ix2 l j := by
    funext a; match a with | ⟨0, _⟩ => rfl | ⟨1, _⟩ => rfl
  rw [e1, e2]

/-- The broadcast bias, at coordinates, is the bias at the column. -/
theorem bias_v3 (b : ArrB) (r : Fin 10000) (c : Fin 128) :
    val_main_v3 (F := Ideal) b (ix2 r c) = b (ix1 c) := by
  rw [val_main_v3_apply, val_main_v2_apply]
  congr 1
  funext a; match a with | ⟨0, _⟩ => rfl

/-- One convolution with its bias, at coordinates, is the specification's. -/
theorem gconv_v4 (h : ArrH) (adj : ArrA) (W : ArrW) (b : ArrB) (r : Fin 10000) (c : Fin 128) :
    val_main_v4 (F := Ideal) h adj W b (ix2 r c)
      = gconv (fun r k => adj (ix2 r k)) (fun k l => h (ix2 k l)) (fun l j => W (ix2 l j)) (fun j => b (ix1 j)) r c := by
  rw [val_main_v4_apply, val_main_v1_apply, bias_v3, Ideal.addf_def]
  unfold gconv
  congr 1
  refine Finset.sum_congr rfl fun k _ => ?_
  have e1 : lidx_main_v1 (ix2 r c) k = ix2 r k := by
    funext a; match a with | ⟨0, _⟩ => rfl | ⟨1, _⟩ => rfl
  have e2 : ridx_main_v1 (ix2 r c) k = ix2 k c := by
    funext a; match a with | ⟨0, _⟩ => rfl | ⟨1, _⟩ => rfl
  rw [e1, e2, support_v0]

/-- The gated hidden layer, at coordinates, is the specification's: the quotient of one by one plus the
    exponential of the negated convolution is the logistic function of the convolution. -/
theorem hidden_v17 (x : ArrH) (adj : ArrA) (W1 : ArrW) (b1 : ArrB) (W2 : ArrW) (b2 : ArrB) (r : Fin 10000) (c : Fin 128) :
    val_main_v17 (F := Ideal) x adj W1 b1 W2 b2 (ix2 r c)
      = hidden (fun r k => adj (ix2 r k)) (fun k l => x (ix2 k l)) (fun l j => W1 (ix2 l j)) (fun j => b1 (ix1 j))
          (fun l j => W2 (ix2 l j)) (fun j => b2 (ix1 j)) r c := by
  have e10 : val_main_v10 (F := Ideal) x adj W2 b2 = val_main_v4 (F := Ideal) x adj W2 b2 := rfl
  rw [val_main_v17_apply, val_main_v5_apply, val_main_v16_apply, val_main_v15_apply, val_main_cst_0_apply,
    val_main_v14_apply, val_main_v13_apply, val_main_cst_apply, val_main_v12_apply, val_main_v11_apply, e10,
    gconv_v4, gconv_v4]
  simp only [Ideal.mulf_def, Ideal.hostUnary_tanh_def, Ideal.hostDivf_def, Ideal.addf_def, Ideal.hostUnary_exp_def,
    Ideal.hostNegf_def, Ideal.negf_def, Ideal.ofBits_def, ofBits_one]
  rfl

/-- A convolution of the hidden layer, as an array, is the specification's result. -/
theorem out_v4 (x0 : ArrH) (x1 : ArrA) (x2 : ArrW) (x3 : ArrB) (x4 : ArrW) (x5 : ArrB) (W : ArrW) (b : ArrB) :
    val_main_v4 (F := Ideal) (val_main_v17 (F := Ideal) x0 x1 x2 x3 x4 x5) x1 W b = outArr x0 x1 x2 x3 x4 x5 W b := by
  funext i
  obtain ⟨r, c, rfl⟩ : ∃ (r : Fin 10000) (c : Fin 128), i = ix2 r c := ⟨i 0, i 1, eq_ix2 i⟩
  have hh : (fun k l => val_main_v17 (F := Ideal) x0 x1 x2 x3 x4 x5 (ix2 k l))
      = hidden (fun r k => x1 (ix2 r k)) (fun k l => x0 (ix2 k l)) (fun l j => x2 (ix2 l j)) (fun j => x3 (ix1 j))
          (fun l j => x4 (ix2 l j)) (fun j => x5 (ix1 j)) := by
    funext k l; exact hidden_v17 x0 x1 x2 x3 x4 x5 k l
  rw [gconv_v4, hh]
  rfl

/-- The reference's first result is the specification's result with the first pair of weights and bias. -/
theorem v22_spec (x0 : ArrH) (x1 : ArrA) (x2 : ArrW) (x3 : ArrB) (x4 : ArrW) (x5 : ArrB) (x6 : ArrW) (x7 : ArrB) :
    val_main_v22 (F := Ideal) x0 x1 x2 x3 x4 x5 x6 x7 = outArr x0 x1 x2 x3 x4 x5 x6 x7 :=
  (rfl : val_main_v22 (F := Ideal) x0 x1 x2 x3 x4 x5 x6 x7
      = val_main_v4 (F := Ideal) (val_main_v17 (F := Ideal) x0 x1 x2 x3 x4 x5) x1 x6 x7).trans
    (out_v4 x0 x1 x2 x3 x4 x5 x6 x7)

/-- The reference's second result is the specification's result with the second pair of weights and bias. -/
theorem v27_spec (x0 : ArrH) (x1 : ArrA) (x2 : ArrW) (x3 : ArrB) (x4 : ArrW) (x5 : ArrB) (x8 : ArrW) (x9 : ArrB) :
    val_main_v27 (F := Ideal) x0 x1 x2 x3 x4 x5 x8 x9 = outArr x0 x1 x2 x3 x4 x5 x8 x9 :=
  (rfl : val_main_v27 (F := Ideal) x0 x1 x2 x3 x4 x5 x8 x9
      = val_main_v4 (F := Ideal) (val_main_v17 (F := Ideal) x0 x1 x2 x3 x4 x5) x1 x8 x9).trans
    (out_v4 x0 x1 x2 x3 x4 x5 x8 x9)

/-- The reference's run with its two results named by the specification: every weakly fair execution
    terminates with each result the specification's result of the arguments' launch contents, and the arguments
    unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = outArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v27)
          = outArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c).1.trans ((val_main_v22_eq (F := Ideal) _ _ _ _ _ _ _ _).trans (v22_spec _ _ _ _ _ _ _ _)),
       (h c).2.1.trans ((val_main_v27_eq (F := Ideal) _ _ _ _ _ _ _ _).trans (v27_spec _ _ _ _ _ _ _ _)),
       (h c).2.2⟩)
    (Cert.ReferenceIdeal.Value.run (F := Ideal) m ρ)

/-- The reference runs and leaves its arguments unchanged: its run, the two results dropped. -/
theorem frame_ri [hPre_finite_inputs : Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.lean ====
/-
  The certificate of the stacked graph-convolution block.

  Five claims.  The word-level kernel and its idealization each run to the end without a fault and leave
  their arguments unchanged: the same proof, read at the two instances — the body is run once per kind of
  grid point, and between points the buffer the kernel carries is tracked at what the earlier points stored.
  The reference runs and leaves its arguments unchanged: its generated run, with the results dropped.  The
  idealization rewrote nothing, so it preserves the kernel trivially.  And on the extended reals the
  idealized kernel and the idealized reference, from memories that agree on the arguments, end with equal
  results: both results are the specification's two graph convolutions of the gated hidden layer
  (`Cert.GcnSpec.outArr`) — the kernel's because its phase-1 blocks tile the result arrays and each block is
  the adjacency rows times the stacked `t · [Wmu | Wls]` plus the bias, the reference's by reading its run one
  operation at a time.  No finiteness of the inputs is used.
-/
import proofs.«163584_g73933567034016_fold_wed_c4_870_20_alg».proof.Defs
import proofs.«163584_g73933567034016_fold_wed_c4_870_20_alg».proof.Proof.Gen.Kernel
import proofs.«163584_g73933567034016_fold_wed_c4_870_20_alg».proof.Proof.Gen.KernelIdeal
import proofs.«163584_g73933567034016_fold_wed_c4_870_20_alg».proof.Proof.Gen.ReferenceIdeal
import proofs.«163584_g73933567034016_fold_wed_c4_870_20_alg».proof.Proof.Gen.Pre_finite_inputs
import proofs.«163584_g73933567034016_fold_wed_c4_870_20_alg».proof.Proof.KBody
import proofs.«163584_g73933567034016_fold_wed_c4_870_20_alg».proof.Proof.KernelValue
import proofs.«163584_g73933567034016_fold_wed_c4_870_20_alg».proof.Proof.RefSpec
import Idealize.ShloMosaic.Adequacy
import Idealize.ShloMosaic.Init

noncomputable section

namespace Cert.Proof

open Idealize.ShloMosaic Idealize.SL.Sem

theorem frame_k [hKernel : Cert.Kernel.Facts] [hPre : Cert.Pre_finite_inputs.Facts] : Cert.frame_Kernel :=
  fun m ρ _ => Cert.Kernel.Hand.frame (F := Bits) m ρ

theorem frame_ki [hKernelIdeal : Cert.KernelIdeal.Facts] [hPre : Cert.Pre_finite_inputs.Facts] : Cert.frame_KernelIdeal :=
  fun m ρ _ => Cert.KernelIdeal.Hand.frame (F := Ideal) m ρ

/-- Both programs end at the specification's results of arguments that agree. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ?_) (Cert.ReferenceIdeal.RefValue.run_spec m' ρ')
  obtain ⟨a0, a1, a2, a3, a4, a5, a6, a7, a8, a9⟩ := hagree c
  have hc := h c
  rw [a0, a1, a2, a3, a4, a5, a6, a7, a8, a9] at hc
  rw [a0, a1, a2, a3, a4, a5, a6, a7, a8, a9]
  exact hc

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
